-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S4x2048x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S8192x1024 : Shape := ⟨2, ![8192, 1024]⟩
abbrev S1x1024 : Shape := ⟨2, ![1, 1024]⟩
abbrev S1x2048 : Shape := ⟨2, ![1, 2048]⟩
abbrev S8192x2048 : Shape := ⟨2, ![8192, 2048]⟩
abbrev S4x2048x2048 : Shape := ⟨3, ![4, 2048, 2048]⟩
abbrev S1x1024x1024 : Shape := ⟨3, ![1, 1024, 1024]⟩
abbrev S1x2048x2048 : Shape := ⟨3, ![1, 2048, 2048]⟩
abbrev S2048x2048 : Shape := ⟨2, ![2048, 2048]⟩
abbrev S2048x1024 : Shape := ⟨2, ![2048, 1024]⟩
abbrev S1024x1 : Shape := ⟨2, ![1024, 1]⟩

abbrev nBuf : Space → Nat
  | .hbm => 24
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .f32⟩
  | .hbm, ⟨12, _⟩ => ⟨S1024x2048, .f32⟩
  | .hbm, ⟨13, _⟩ => ⟨S1024x2048, .bf16⟩
  | .hbm, ⟨14, _⟩ => ⟨S2048, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .bf16⟩
  | .hbm, ⟨19, _⟩ => ⟨S1x2048, .f32⟩
  | .hbm, ⟨20, _⟩ => ⟨S8192x2048, .bf16⟩
  | .hbm, ⟨21, _⟩ => ⟨S4x2048x1024, .bf16⟩
  | .hbm, ⟨22, _⟩ => ⟨S4x2048x2048, .bf16⟩
  | .hbm, ⟨23, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S1x2048, .f32⟩
  | .local _ .vmem, ⟨10, _⟩ => ⟨S1024x2048, .bf16⟩
  | .local _ .vmem, ⟨11, _⟩ => ⟨S1024x2048, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x2048x2048, .bf16⟩
  | .local _ .vmem, ⟨15, _⟩ => ⟨S1x1024x1024, .f32⟩
  | .local _ .vmem, ⟨16, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  transposes_S1024x1024_S1024x1024_1_0 : S1024x1024.Transposes [1, 0] S1024x1024
  bitsLt_bf16_f32 : FTy.bits .bf16 < FTy.bits .f32
  concatenates_S1024x1024_S1024x1024_S1024x2048_d1 : Shape.Concatenates [S1024x1024, S1024x1024] S1024x2048 1
  concatenates_S1024_S1024_S2048_d0 : Shape.Concatenates [S1024, S1024] S2048 0
  shapeCasts_S4x2048x1024_S8192x1024 : S4x2048x1024.ShapeCasts S8192x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  packedbf16_S1024x2048_S1024x2048_0_0 : (Rect.unit (s := S1024x2048) ![0, 0] S1024x2048.size inb_S1024x2048_S1024x2048_0_0).PackedRows (EltTy.packing .bf16)
  shapeCasts_S8192x1024_S4x2048x1024 : S8192x1024.ShapeCasts S4x2048x1024
  shapeCasts_S8192x2048_S4x2048x2048 : S8192x2048.ShapeCasts S4x2048x2048
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  slices_S2048x2048_o0_0_S2048x1024 : S2048x2048.Slices ![0, 0] S2048x1024
  slices_S2048x2048_o0_1024_S2048x1024 : S2048x2048.Slices ![0, 1024] S2048x1024
  reduces_S1024x2048_S1024 : S1024x2048.Reduces [1] S1024
  shapeCasts_S1024_S1024x1 : S1024.ShapeCasts S1024x1
  broadcasts_S1024x1_S1024x2048 : S1024x1.Broadcasts S1024x2048
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S1024x2048_S1024x2048_1_0_0_1_n_n_wf : DotDims.WF S1024x1024 S1024x2048 S1024x2048 [1] [0] [0] [1] [] []
  dot_S1024x1024_S2048x1024_S1024x2048_1_1_0_0_n_n_wf : DotDims.WF S1024x1024 S2048x1024 S1024x2048 [1] [1] [0] [0] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .bf16 = 32 ∨ (Rect.block (s := S1024x2048) S1024x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x2048.size a
  hwx1_3 : ∀ i : grid1.Coords, EltTy.bits .bf16 = 32 ∨ (Rect.block (s := S8192x2048) S1024x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S4x2048x1024.size a
  hwx2_0 : ∀ i : grid2.Coords, EltTy.bits .bf16 = 32 ∨ (Rect.block (s := S4x2048x1024) S1x1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048x2048.size a ≤ S4x2048x2048.size a
  hwx2_1 : ∀ i : grid2.Coords, EltTy.bits .bf16 = 32 ∨ (Rect.block (s := S4x2048x2048) S1x2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1024.size a ≤ S4x2048x1024.size a
  hwx2_2 : ∀ i : grid2.Coords, EltTy.bits .f32 = 32 ∨ (Rect.block (s := S4x2048x1024) S1x1024x1024.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4x2048x1024, .f32⟩
  | .hbm, ⟨9, _⟩ => ⟨S1x1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelRun.lean ====
/-
  The idealized kernel's run, with its result array named.

  The program is three kernel regions among stretches of host operations. Every weakly fair execution from a memory
  with zero counters terminates without a fault; in the final state the result array holds what the last region's
  write-backs leave in it (the last boundary's contents, read at the result's reference), and the eight argument arrays
  are as launched. The run is the segments' run; only the reading of the final state differs from the frame's: it
  keeps the result array beside the arguments.
-/
import proofs.«119906_j20186346292012_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents and the arguments as launched. -/
theorem run : θ_run defs (onTc (τ := τ) (main (F := F))) ⟨m, fun _ => 0, ρ⟩ (fun r => ∀ c : Dev nD,
      r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v15 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«119906_j20186346292012_2_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.QueryProjBody.lean ====
/-
  The query projection region's body at an index.

  The region multiplies the 8192 flattened input rows, in blocks of 1024 rows, by one resident weight matrix
  [1024, 1024] and adds one resident bias row. A block's payload at (p, q) is the sum over k of
  input (p, k) * weight (k, q), plus bias (0, q): the matrix product into the zero splat is that sum, the bias row is
  broadcast along the rows, and the changes of float format are the identity on extended reals. Block t of the
  output covers rows 1024 t .. 1024 t + 1023, the eight blocks tile the output, so after the region the output array is
  that same expression of the WHOLE input array, the weight matrix and the bias row, whatever the contents the region
  is entered with.
-/
import proofs.«119906_j20186346292012_2_alg».proof.Proof.Gen.KernelIdeal.Frame
import proofs.«119906_j20186346292012_2_alg».proof.Proof.LibRowRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.QueryProj

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The product's record: a plain [1024, 1024] · [1024, 1024] contraction. -/
local notation "DD" => dot_S1024x1024_S1024x1024_S1024x1024_1_0_0_1_n_n

theorem dd_l0 (i : S1024x1024.Idx) (q : (dot_S1024x1024_S1024x1024_S1024x1024_1_0_0_1_n_n).contr.Idx) : ((dot_S1024x1024_S1024x1024_S1024x1024_1_0_0_1_n_n).lhsIdx i q 0).val = (i 0).val := by
  unfold DotDims.lhsIdx
  rw [dif_neg (show ¬(0 : Fin S1024x1024.rank) ∈ (dot_S1024x1024_S1024x1024_S1024x1024_1_0_0_1_n_n).lhsBatch by decide), dif_pos (show (0 : Fin S1024x1024.rank) ∈ (dot_S1024x1024_S1024x1024_S1024x1024_1_0_0_1_n_n).lhsNonContracting by decide)]
  rfl
theorem dd_l1 (i : S1024x1024.Idx) (q : (dot_S1024x1024_S1024x1024_S1024x1024_1_0_0_1_n_n).contr.Idx) : ((dot_S1024x1024_S1024x1024_S1024x1024_1_0_0_1_n_n).lhsIdx i q 1).val = (q ⟨0, by decide⟩).val :=
  (dot_S1024x1024_S1024x1024_S1024x1024_1_0_0_1_n_n).lhsIdx_val_of_single rfl i q
theorem dd_r0 (i : S1024x1024.Idx) (q : (dot_S1024x1024_S1024x1024_S1024x1024_1_0_0_1_n_n).contr.Idx) : ((dot_S1024x1024_S1024x1024_S1024x1024_1_0_0_1_n_n).rhsIdx i q 0).val = (q ⟨0, by decide⟩).val :=
  (dot_S1024x1024_S1024x1024_S1024x1024_1_0_0_1_n_n).rhsIdx_val_of_single rfl i q
theorem dd_r1 (i : S1024x1024.Idx) (q : (dot_S1024x1024_S1024x1024_S1024x1024_1_0_0_1_n_n).contr.Idx) : ((dot_S1024x1024_S1024x1024_S1024x1024_1_0_0_1_n_n).rhsIdx i q 1).val = (i 1).val := by
  unfold DotDims.rhsIdx
  rw [dif_neg (show ¬(1 : Fin S1024x1024.rank) ∈ (dot_S1024x1024_S1024x1024_S1024x1024_1_0_0_1_n_n).rhsBatch by decide), dif_pos (show (1 : Fin S1024x1024.rank) ∈ (dot_S1024x1024_S1024x1024_S1024x1024_1_0_0_1_n_n).rhsNonContracting by decide)]
  rfl

/-- The bias row broadcast along the rows reads, at (p, q), the row's entry q. -/
theorem bias_apply (v : S1x1024.Idx → EReal) (h : S1x1024.Broadcasts S1024x1024) (p : Fin 1024) (q : Fin 1024) :
    broadcastTo S1024x1024 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The body's payload at (p, q): the product's sum plus the bias entry. -/
theorem pay_apply (x0 : Vec Ideal S1024x1024 .f32) (x1 : Vec Ideal S1024x1024 .bf16) (x2 : Vec Ideal S1x1024 .f32) (j : S1024x1024.Idx) :
    k0_pay1 (F := Ideal) x0 x1 x2 j
      = (∑ k : Fin 1024, x0 (ix2 (j 0) k) * x1 (ix2 k (j 1))) + x2 (ix2 (0 : Fin 1) (j 1)) := by
  obtain ⟨p, q, rfl⟩ : ∃ (p : Fin 1024) (q : Fin 1024), j = ix2 p q := ⟨j 0, j 1, eq_ix2 j⟩
  unfold k0_pay1
  show (matmul (F := Ideal) (dot_S1024x1024_S1024x1024_S1024x1024_1_0_0_1_n_n) none _ _ (constant (F := Ideal) S1024x1024 .f32 0x00000000#32) (ix2 p q)) + (broadcastTo S1024x1024 _ _ (ix2 p q)) = _
  rw [Cert.Lib.RowRead.matmul_zero_apply (dot_S1024x1024_S1024x1024_S1024x1024_1_0_0_1_n_n) rfl rfl dd_l0 dd_l1 dd_r0 dd_r1, bias_apply]
  simp only [shapeCast_self]
  rfl

end Cert.KernelIdeal.QueryProj

end
-- ==== Proof.QueryProj.lean ====
/-
  The query projection region, read as one matrix.

  Block t of the output covers rows 1024 t .. 1024 t + 1023 of all 1024 lanes; the input block at t is the same rows
  of the flattened input, the weight matrix and the bias row are the same whole blocks at every point. So what point t
  writes back is block t of ONE function of the arrays the region is entered with: at (r, q) the sum over k of
  input (r, k) * weight (k, q), plus bias (0, q). The eight blocks tile the 8192 rows, so after the region the output
  array is that function, whatever the entry contents.
-/
import proofs.«119906_j20186346292012_2_alg».proof.Proof.QueryProjBody

set_option maxRecDepth 16384

noncomputable section

namespace Cert.KernelIdeal.QueryProj

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offs_zero : (![0, 0] : Fin 2 → Nat) = fun _ => 0 := funext fun a => by fin_cases a <;> rfl

/-- The projected matrix: rows of A against the columns of Wt, plus the bias row. -/
def proj (A : S8192x1024.Idx → EReal) (Wt : S1024x1024.Idx → EReal) (bias : S1x1024.Idx → EReal) : S8192x1024.Idx → EReal :=
  fun i => (∑ k : Fin 1024, A (ix2 (i 0) k) * Wt (ix2 k (i 1))) + bias (ix2 (0 : Fin 1) (i 1))

/-- The printed index maps over the eight points: the input block moves with the output block along the rows, every
    other block index is zero, and the output's row-block index is the point's number. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every row block is some point's. -/
theorem idx_onto : ∀ (q0 : Fin 8), ∃ t : Fin cfg0.N, win0_3.index t = ![q0.val, 0] :=
  (by decide +kernel : ∀ (q0 : Fin 8), ∃ t : Fin grid0.N, win0_3.index t = ![q0.val, 0])

/-- What point t writes back is block t of the projected matrix of the entry arrays. -/
theorem flushed_eq (c : Dev nD) (t : Fin cfg0.N) :
    (dat0 V c).flushed 3 t = ((cfg0.win 3).blk t).view.read (Elt Ideal)
      (proj (V c main_v7) (V c main_v1) (V c main_v9)) := by
  show (cfg0.win 3).cut (grid0.coords t) ((dat0 V c).after 3 t) = _
  rw [after0_3]
  unfold out0_3
  rw [View.canon_unit_zero offs_zero]
  simp only [View.ld_unit_zero (S := S1024x1024) offs_zero, View.ld_unit_zero (S := S1024x1024) offs_zero, View.ld_unit_zero (S := S1x1024) offs_zero]
  obtain ⟨e0, e1, e2, e3, e4, e5, e6, e7⟩ := idx_facts t
  funext j
  show k0_pay1 (F := Ideal) (iblk0 V c 0 t) (iblk0 V c 1 t) (iblk0 V c 2 t) j = proj (V c main_v7) (V c main_v1) (V c main_v9) (((cfg0.win 3).blk t).view.emb j)
  refine (pay_apply (iblk0 V c 0 t) (iblk0 V c 1 t) (iblk0 V c 2 t) j).trans ?_
  unfold proj
  have hA : ∀ k : Fin 1024, ((cfg0.win 0).blk t).view.emb (ix2 (j 0) k) = ix2 ((((cfg0.win 3).blk t).view.emb j) 0) k := by
    intro k; funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * k.val = k.val; omega
  have hW : ∀ k : Fin 1024, ((cfg0.win 1).blk t).view.emb (ix2 k (j 1)) = ix2 k ((((cfg0.win 3).blk t).view.emb j) 1) := by
    intro k; funext a; apply Fin.ext
    match a with
    | ⟨0, _⟩ => show win0_1.index t (0 : Fin 2) * 1024 + 1 * k.val = k.val; omega
    | ⟨1, _⟩ => show win0_1.index t (1 : Fin 2) * 1024 + 1 * (j 1).val = win0_3.index t (1 : Fin 2) * 1024 + 1 * (j 1).val; omega
  have hB : ((cfg0.win 2).blk t).view.emb (ix2 (0 : Fin 1) (j 1)) = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega
  refine congrArg₂ (fun a b : EReal => a + b) (Finset.sum_congr rfl fun k _ => ?_) ?_
  · exact congrArg₂ (fun a b : EReal => a * b) (congrArg (V c main_v7) (hA k)) (congrArg (V c main_v1) (hW k))
  · exact congrArg (V c main_v9) hB

/-- An index of the output is in point t's block iff each coordinate is in the block's range on its axis. -/
theorem mem_blk (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v10).slice (win0_3.rect t)).set ↔ _
  rw [View.set_slice_whole, Rect.mem_set_unit]
  exact Iff.rfl

/-- Every index of the output is in the block of the point numbered by its row block. -/
theorem cover (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region: the projected matrix of the entry arrays. -/
theorem final (c : Dev nD) : (dat0 V c).arrAt 3 cfg0.N = proj (V c main_v7) (V c main_v1) (V c main_v9) :=
  (dat0 V c).arrAt_eq_of_cover 3 (proj (V c main_v7) (V c main_v1) (V c main_v9)) (fun t _ => flushed_eq V c t) cover

end Cert.KernelIdeal.QueryProj

end
-- ==== Proof.KeyValueProjBody.lean ====
/-
  The key and value projection region's body at an index.

  The region multiplies the 8192 flattened input rows, in blocks of 1024 rows, by one resident weight matrix
  [1024, 2048] and adds one resident bias row. A block's payload at (p, q) is the sum over k of
  input (p, k) * weight (k, q), plus bias (0, q): the matrix product into the zero splat is that sum, the bias row is
  broadcast along the rows, and the changes of float format are the identity on extended reals. Block t of the
  output covers rows 1024 t .. 1024 t + 1023, the eight blocks tile the output, so after the region the output array is
  that same expression of the WHOLE input array, the weight matrix and the bias row, whatever the contents the region
  is entered with.
-/
import proofs.«119906_j20186346292012_2_alg».proof.Proof.Gen.KernelIdeal.Frame
import proofs.«119906_j20186346292012_2_alg».proof.Proof.LibRowRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KeyValueProj

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The product's record: a plain [1024, 1024] · [1024, 2048] contraction. -/
local notation "DD" => dot_S1024x1024_S1024x2048_S1024x2048_1_0_0_1_n_n

theorem dd_l0 (i : S1024x2048.Idx) (q : (dot_S1024x1024_S1024x2048_S1024x2048_1_0_0_1_n_n).contr.Idx) : ((dot_S1024x1024_S1024x2048_S1024x2048_1_0_0_1_n_n).lhsIdx i q 0).val = (i 0).val := by
  unfold DotDims.lhsIdx
  rw [dif_neg (show ¬(0 : Fin S1024x1024.rank) ∈ (dot_S1024x1024_S1024x2048_S1024x2048_1_0_0_1_n_n).lhsBatch by decide), dif_pos (show (0 : Fin S1024x1024.rank) ∈ (dot_S1024x1024_S1024x2048_S1024x2048_1_0_0_1_n_n).lhsNonContracting by decide)]
  rfl
theorem dd_l1 (i : S1024x2048.Idx) (q : (dot_S1024x1024_S1024x2048_S1024x2048_1_0_0_1_n_n).contr.Idx) : ((dot_S1024x1024_S1024x2048_S1024x2048_1_0_0_1_n_n).lhsIdx i q 1).val = (q ⟨0, by decide⟩).val :=
  (dot_S1024x1024_S1024x2048_S1024x2048_1_0_0_1_n_n).lhsIdx_val_of_single rfl i q
theorem dd_r0 (i : S1024x2048.Idx) (q : (dot_S1024x1024_S1024x2048_S1024x2048_1_0_0_1_n_n).contr.Idx) : ((dot_S1024x1024_S1024x2048_S1024x2048_1_0_0_1_n_n).rhsIdx i q 0).val = (q ⟨0, by decide⟩).val :=
  (dot_S1024x1024_S1024x2048_S1024x2048_1_0_0_1_n_n).rhsIdx_val_of_single rfl i q
theorem dd_r1 (i : S1024x2048.Idx) (q : (dot_S1024x1024_S1024x2048_S1024x2048_1_0_0_1_n_n).contr.Idx) : ((dot_S1024x1024_S1024x2048_S1024x2048_1_0_0_1_n_n).rhsIdx i q 1).val = (i 1).val := by
  unfold DotDims.rhsIdx
  rw [dif_neg (show ¬(1 : Fin S1024x2048.rank) ∈ (dot_S1024x1024_S1024x2048_S1024x2048_1_0_0_1_n_n).rhsBatch by decide), dif_pos (show (1 : Fin S1024x2048.rank) ∈ (dot_S1024x1024_S1024x2048_S1024x2048_1_0_0_1_n_n).rhsNonContracting by decide)]
  rfl

/-- The bias row broadcast along the rows reads, at (p, q), the row's entry q. -/
theorem bias_apply (v : S1x2048.Idx → EReal) (h : S1x2048.Broadcasts S1024x2048) (p : Fin 1024) (q : Fin 2048) :
    broadcastTo S1024x2048 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The body's payload at (p, q): the product's sum plus the bias entry. -/
theorem pay_apply (x0 : Vec Ideal S1024x1024 .f32) (x1 : Vec Ideal S1024x2048 .bf16) (x2 : Vec Ideal S1x2048 .f32) (j : S1024x2048.Idx) :
    k1_pay1 (F := Ideal) x0 x1 x2 j
      = (∑ k : Fin 1024, x0 (ix2 (j 0) k) * x1 (ix2 k (j 1))) + x2 (ix2 (0 : Fin 1) (j 1)) := by
  obtain ⟨p, q, rfl⟩ : ∃ (p : Fin 1024) (q : Fin 2048), j = ix2 p q := ⟨j 0, j 1, eq_ix2 j⟩
  unfold k1_pay1
  show (matmul (F := Ideal) (dot_S1024x1024_S1024x2048_S1024x2048_1_0_0_1_n_n) none _ _ (constant (F := Ideal) S1024x2048 .f32 0x00000000#32) (ix2 p q)) + (broadcastTo S1024x2048 _ _ (ix2 p q)) = _
  rw [Cert.Lib.RowRead.matmul_zero_apply (dot_S1024x1024_S1024x2048_S1024x2048_1_0_0_1_n_n) rfl rfl dd_l0 dd_l1 dd_r0 dd_r1, bias_apply]
  simp only [shapeCast_self]
  rfl

end Cert.KernelIdeal.KeyValueProj

end
-- ==== Proof.KeyValueProj.lean ====
/-
  The key and value projection region, read as one matrix.

  Block t of the output covers rows 1024 t .. 1024 t + 1023 of all 2048 lanes; the input block at t is the same rows
  of the flattened input, the weight matrix and the bias row are the same whole blocks at every point. So what point t
  writes back is block t of ONE function of the arrays the region is entered with: at (r, q) the sum over k of
  input (r, k) * weight (k, q), plus bias (0, q). The eight blocks tile the 8192 rows, so after the region the output
  array is that function, whatever the entry contents.
-/
import proofs.«119906_j20186346292012_2_alg».proof.Proof.KeyValueProjBody

set_option maxRecDepth 16384

noncomputable section

namespace Cert.KernelIdeal.KeyValueProj

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offs_zero : (![0, 0] : Fin 2 → Nat) = fun _ => 0 := funext fun a => by fin_cases a <;> rfl

/-- The projected matrix: rows of A against the columns of Wt, plus the bias row. -/
def proj (A : S8192x1024.Idx → EReal) (Wt : S1024x2048.Idx → EReal) (bias : S1x2048.Idx → EReal) : S8192x2048.Idx → EReal :=
  fun i => (∑ k : Fin 1024, A (ix2 (i 0) k) * Wt (ix2 k (i 1))) + bias (ix2 (0 : Fin 1) (i 1))

/-- The printed index maps over the eight points: the input block moves with the output block along the rows, every
    other block index is zero, and the output's row-block index is the point's number. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every row block is some point's. -/
theorem idx_onto : ∀ (q0 : Fin 8), ∃ t : Fin cfg1.N, win1_3.index t = ![q0.val, 0] :=
  (by decide +kernel : ∀ (q0 : Fin 8), ∃ t : Fin grid1.N, win1_3.index t = ![q0.val, 0])

/-- What point t writes back is block t of the projected matrix of the entry arrays. -/
theorem flushed_eq (c : Dev nD) (t : Fin cfg1.N) :
    (dat1 V c).flushed 3 t = ((cfg1.win 3).blk t).view.read (Elt Ideal)
      (proj (V c main_v8) (V c main_v5) (V c main_v11)) := by
  show (cfg1.win 3).cut (grid1.coords t) ((dat1 V c).after 3 t) = _
  rw [after1_3]
  unfold out1_3
  rw [View.canon_unit_zero offs_zero]
  simp only [View.ld_unit_zero (S := S1024x1024) offs_zero, View.ld_unit_zero (S := S1024x2048) offs_zero, View.ld_unit_zero (S := S1x2048) offs_zero]
  obtain ⟨e0, e1, e2, e3, e4, e5, e6, e7⟩ := idx_facts t
  funext j
  show k1_pay1 (F := Ideal) (iblk1 V c 0 t) (iblk1 V c 1 t) (iblk1 V c 2 t) j = proj (V c main_v8) (V c main_v5) (V c main_v11) (((cfg1.win 3).blk t).view.emb j)
  refine (pay_apply (iblk1 V c 0 t) (iblk1 V c 1 t) (iblk1 V c 2 t) j).trans ?_
  unfold proj
  have hA : ∀ k : Fin 1024, ((cfg1.win 0).blk t).view.emb (ix2 (j 0) k) = ix2 ((((cfg1.win 3).blk t).view.emb j) 0) k := by
    intro k; funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 1024 + 1 * k.val = k.val; omega
  have hW : ∀ k : Fin 1024, ((cfg1.win 1).blk t).view.emb (ix2 k (j 1)) = ix2 k ((((cfg1.win 3).blk t).view.emb j) 1) := by
    intro k; funext a; apply Fin.ext
    match a with
    | ⟨0, _⟩ => show win1_1.index t (0 : Fin 2) * 1024 + 1 * k.val = k.val; omega
    | ⟨1, _⟩ => show win1_1.index t (1 : Fin 2) * 2048 + 1 * (j 1).val = win1_3.index t (1 : Fin 2) * 2048 + 1 * (j 1).val; omega
  have hB : ((cfg1.win 2).blk t).view.emb (ix2 (0 : Fin 1) (j 1)) = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 2048 + 1 * (j 1).val = win1_3.index t (1 : Fin 2) * 2048 + 1 * (j 1).val; omega
  refine congrArg₂ (fun a b : EReal => a + b) (Finset.sum_congr rfl fun k _ => ?_) ?_
  · exact congrArg₂ (fun a b : EReal => a * b) (congrArg (V c main_v8) (hA k)) (congrArg (V c main_v5) (hW k))
  · exact congrArg (V c main_v11) hB

/-- An index of the output is in point t's block iff each coordinate is in the block's range on its axis. -/
theorem mem_blk (t : Fin cfg1.N) (i : S8192x2048.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v12).slice (win1_3.rect t)).set ↔ _
  rw [View.set_slice_whole, Rect.mem_set_unit]
  exact Iff.rfl

/-- Every index of the output is in the block of the point numbered by its row block. -/
theorem cover (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  obtain ⟨t, ht⟩ := idx_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 2048 ≤ (i 1).val ∧ (i 1).val < win1_3.index t (1 : Fin 2) * 2048 + 2048; omega

/-- The output array after the region: the projected matrix of the entry arrays. -/
theorem final (c : Dev nD) : (dat1 V c).arrAt 3 cfg1.N = proj (V c main_v8) (V c main_v5) (V c main_v11) :=
  (dat1 V c).arrAt_eq_of_cover 3 (proj (V c main_v8) (V c main_v5) (V c main_v11)) (fun t _ => flushed_eq V c t) cover

end Cert.KernelIdeal.KeyValueProj

end
-- ==== Proof.Spec.lean ====
/-
  Scaled dot-product attention over projected inputs, on the extended reals, entry by entry.

  A row X of 1024 entries is projected by a weight matrix W and a bias b to the row whose entry h is
  (the sum over d of X d * W h d) + b h. For one batch and one query row, the score against key row c is
  the dot product of the projected query with the projected key c, times 1/32 (the word of 1/sqrt 1024);
  the scores of the 2048 keys are shifted by their maximum, exponentiated, divided by the sum of the exponentials,
  and the result entry h is the sum over the keys of the weight of key c times entry h of the projected value c.
  Both programs compute this function of the eight argument arrays; nothing here mentions either program.
-/
import Idealize.ShloMosaic.PureOps.Ideal

noncomputable section

namespace Cert.Attn

open Idealize.ShloMosaic

/-- The factor the scores are multiplied by: the f32 word of 1/32. -/
def scale : EReal := Ideal.ofBits .f32 0x3D000000#32

/-- The value the maximum over the keys starts from: the f32 word of minus infinity. -/
def negInf : EReal := Ideal.ofBits .f32 0xFF800000#32

/-- A row against a weight matrix, plus the bias: entry h is (sum over d of X d * W h d) + b h. -/
def linear (X : Fin 1024 → EReal) (W : Fin 1024 → Fin 1024 → EReal) (b : Fin 1024 → EReal) (h : Fin 1024) : EReal :=
  (∑ d : Fin 1024, X d * W h d) + b h

/-- The scaled score of a query row against key row c. -/
def score (Q : Fin 1024 → EReal) (Kr : Fin 2048 → Fin 1024 → EReal) (c : Fin 2048) : EReal :=
  (∑ j : Fin 1024, Q j * Kr c j) * scale

/-- The largest score of a query row over the 2048 keys. -/
def top (Q : Fin 1024 → EReal) (Kr : Fin 2048 → Fin 1024 → EReal) : EReal :=
  (Finset.univ : Finset (Fin 2048)).fold max negInf (score Q Kr)

/-- The exponential of a score shifted by the largest one. -/
def ex (Q : Fin 1024 → EReal) (Kr : Fin 2048 → Fin 1024 → EReal) (c : Fin 2048) : EReal :=
  Ideal.exp (score Q Kr c - top Q Kr)

/-- The softmax weight of key c for a query row. -/
def weight (Q : Fin 1024 → EReal) (Kr : Fin 2048 → Fin 1024 → EReal) (c : Fin 2048) : EReal :=
  Ideal.div (ex Q Kr c) (∑ c' : Fin 2048, ex Q Kr c')

/-- The context row of a query row: entry h is the sum over the keys of weight c * V c h. -/
def ctx (Q : Fin 1024 → EReal) (Kr Vr : Fin 2048 → Fin 1024 → EReal) (h : Fin 1024) : EReal :=
  ∑ c : Fin 2048, weight Q Kr c * Vr c h

/-- The whole function: batch b, query row s, entry h, of the eight arrays read by coordinates. -/
def out (q x : Fin 4 → Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (b : Fin 4) (s : Fin 2048) (h : Fin 1024) : EReal :=
  ctx (linear (q b s) Wq bq) (fun c => linear (x b c) Wk bk) (fun c => linear (x b c) Wv bv) h

end Cert.Attn

end
-- ==== Proof.LibRowsDot.lean ====
/-
  Two matrices contracted along their rows' common axis, read at an index, at the ideal instance.

  For a rank-2 contraction [a, K] · [b, K] → [a, b] (the left operand's axis 1 against the right operand's axis 1, no
  batch axis: the product of the left matrix with the transpose of the right), the accumulate-into-zero matrix product
  and the host's dot_general are both, at the result index (p, q), the sum over k < K of lhs (p, k) · rhs (q, k): the
  contracted shape has one axis of extent K, so the sum over its indices is a sum over Fin K, and the operand indices
  the contraction names at (p, q) and k are (p, k) and (q, k). The operands may be of any float formats (on extended
  reals a change of format is the identity). The four coordinate facts about a given dimension record (hl0, hl1, hr0,
  hr1) are taken as hypotheses: for a literal record each is a computation.
-/
import Idealize.ShloMosaic.PureOps.Ideal.Laws
import Idealize.ShloMosaic.Lib.ValueIdx

noncomputable section

namespace Cert.Lib.RowsDot

open Idealize.ShloMosaic Idealize.ShloMosaic.ValueIdx

variable {a K b : Nat} (D : DotDims (⟨2, ![a, K]⟩ : Shape) (⟨2, ![b, K]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (i 1).val)
  (hr1 : ∀ (i : (⟨2, ![a, b]⟩ : Shape).Idx) (q : D.contr.Idx), (D.rhsIdx i q 1).val = (q ⟨0, by omega⟩).val)

include hr hs hl0 hl1 hr0 hr1

/-- The sum over the contracted shape's indices of the products of the operands at the contraction's indices is the
    sum over k < K of lhs (p, k) · rhs (q, k). -/
theorem sum_contr (lhs : (⟨2, ![a, K]⟩ : Shape).Idx → EReal) (rhs : (⟨2, ![b, K]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 q k := funext fun ax => Fin.ext (by
    match ax with
    | ⟨0, _⟩ => exact hr0 _ _
    | ⟨1, _⟩ => exact (hr1 _ _).trans hk)
  rw [el, er]

/-- The matrix product accumulated into the zero splat, at (p, q), for operands of any float formats. -/
theorem matmul_zero_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    matmul D prec lhs rhs (constant (⟨2, ![a, b]⟩ : Shape) .f32 0x00000000#32) (ix2 p q) = ∑ k : Fin K, lhs (ix2 p k) * rhs (ix2 q k) :=
  (Ideal.matmul_constant_zero_apply D prec lhs rhs (ix2 p q)).trans
    (sum_contr D hr hs hl0 hl1 hr0 hr1 (fun i => lhs i) (fun i => rhs i) p q)

/-- The host's dot_general, at (p, q), for operands of any float formats. -/
theorem dotGeneral_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    Host.dotGeneral D prec lhs rhs (ix2 p q) = ∑ k : Fin K, lhs (ix2 p k) * rhs (ix2 q k) :=
  (Ideal.dotGeneral_apply D prec .single lhs rhs (ix2 p q)).trans
    (sum_contr D hr hs hl0 hl1 hr0 hr1 (fun i => lhs i) (fun i => rhs i) p q)

end Cert.Lib.RowsDot

end
-- ==== Proof.LibRowMax.lean ====
/-
  The maximum of a row of a matrix, at the ideal instance.

  A float reduction with a maximum body over the lanes of an [a, b] matrix, read at row p, is the fold of max, from
  the value the accumulator's word denotes, over the b entries of row p: the reduced index p with lane k put back is
  (p, k), and max on the extended reals commutes and associates, so the fold does not depend on the order of the lanes.
-/
import Idealize.ShloMosaic.PureOps.Ideal.Laws
import Idealize.ShloMosaic.Lib.ValueIdx

noncomputable section

namespace Cert.Lib.RowMax

open Idealize.ShloMosaic Idealize.ShloMosaic.ValueIdx

/-- The reduced index p with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane maximum of an [a, b] matrix, at row p, is the fold of max over the b entries of row p. -/
theorem rowMax_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) (fun k => src (ix2 p k)) := by
  rw [Ideal.multiReduction_maximumf_single]
  exact congrArg (fun f => Finset.fold max (Ideal.ofBits φ acc) f (Finset.univ : Finset (Fin b)))
    (funext fun k => by show src (h.lift (ix1 p) k) = src (ix2 p k); rw [lift_lane]; rfl)

end Cert.Lib.RowMax

end
-- ==== Proof.AttnBody.lean ====
/-
  The attention kernel's body, read at an index, at the ideal instance.

  The body takes the query block [1, 1024, 1024] and the fused key|value block [1, 2048, 2048] (lanes 0..1023 of a row
  are the key, lanes 1024..2047 the value). It drops the unit axes, cuts the key half and the value half, contracts the
  queries with the keys along their common axis, scales by the word of 1/32, subtracts each row's maximum, exponentiates,
  divides by each row's sum, and multiplies the resulting weights with the value half. Read at (0, r, h) this is the
  context row of query row r at entry h: the sum over the 2048 keys c of weight c times entry h of value c, where the
  weight is the exponential of the shifted scaled score over the sum of those exponentials.

  The proof names the intermediate arrays of the body (the payload is their composition, by unfolding), reads each one
  at an index by the lemma of its operation, and assembles the readings.
-/
import proofs.«119906_j20186346292012_2_alg».proof.Proof.Gen.KernelIdeal.Skeleton
import proofs.«119906_j20186346292012_2_alg».proof.Proof.Spec
import proofs.«119906_j20186346292012_2_alg».proof.Proof.LibRowsDot
import proofs.«119906_j20186346292012_2_alg».proof.Proof.LibRowRead
import proofs.«119906_j20186346292012_2_alg».proof.Proof.LibRowMax
import Idealize.ShloMosaic.Lib.ValueIdx
import Idealize.ShloMosaic.Lib.ValueLayout
import Idealize.ShloMosaic.Lib.Pipeline.Value

noncomputable section

namespace Cert.AttnBody

open Idealize.ShloMosaic Idealize.ShloMosaic.ValueIdx Cert.KernelIdeal Cert.KernelIdeal.Gen

/-! ## The coordinates the two contractions name -/

/-- The score contraction [1024, K] · [2048, K]: the left index at (i, q) has row i 0. -/
theorem score_l0 (i : S1024x2048.Idx) (q : dot_S1024x1024_S2048x1024_S1024x2048_1_1_0_0_n_n.contr.Idx) :
    (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide),
    dif_pos (show (0 : Fin S1024x1024.rank) ∈ dot_S1024x1024_S2048x1024_S1024x2048_1_1_0_0_n_n.lhsNonContracting by decide)]
  rfl

/-- … and lane the contracted coordinate. -/
theorem score_l1 (i : S1024x2048.Idx) (q : dot_S1024x1024_S2048x1024_S1024x2048_1_1_0_0_n_n.contr.Idx) :
    (dot_S1024x1024_S2048x1024_S1024x2048_1_1_0_0_n_n.lhsIdx i q 1).val = (q ⟨0, by decide⟩).val :=
  dot_S1024x1024_S2048x1024_S1024x2048_1_1_0_0_n_n.lhsIdx_val_of_single rfl i q

/-- The right index at (i, q) has row i 1. -/
theorem score_r0 (i : S1024x2048.Idx) (q : dot_S1024x1024_S2048x1024_S1024x2048_1_1_0_0_n_n.contr.Idx) :
    (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide),
    dif_pos (show (0 : Fin S2048x1024.rank) ∈ dot_S1024x1024_S2048x1024_S1024x2048_1_1_0_0_n_n.rhsNonContracting by decide)]
  rfl

/-- … and lane the contracted coordinate. -/
theorem score_r1 (i : S1024x2048.Idx) (q : dot_S1024x1024_S2048x1024_S1024x2048_1_1_0_0_n_n.contr.Idx) :
    (dot_S1024x1024_S2048x1024_S1024x2048_1_1_0_0_n_n.rhsIdx i q 1).val = (q ⟨0, by decide⟩).val :=
  dot_S1024x1024_S2048x1024_S1024x2048_1_1_0_0_n_n.rhsIdx_val_of_single rfl i q

/-- The plain product [1024, K] · [K, 1024]: the left index at (i, q) has row i 0. -/
theorem ctx_l0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide),
    dif_pos (show (0 : Fin S1024x2048.rank) ∈ dot_S1024x2048_S2048x1024_S1024x1024_1_0_0_1_n_n.lhsNonContracting by decide)]
  rfl

/-- … and lane the contracted coordinate. -/
theorem ctx_l1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q

/-- The right index at (i, q) has row the contracted coordinate. -/
theorem ctx_r0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q

/-- … and lane i 1. -/
theorem ctx_r1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide),
    dif_pos (show (1 : Fin S2048x1024.rank) ∈ dot_S1024x2048_S2048x1024_S1024x1024_1_0_0_1_n_n.rhsNonContracting by decide)]
  rfl

/-! ## The body's intermediate arrays -/

/-- The query block with its unit axis dropped. -/
def qm (x0 : Vec Ideal S1x1024x1024 .bf16) : FVec Ideal S1024x1024 .bf16 :=
  shapeCast S1024x1024 x0 shapeCasts_S1x1024x1024_S1024x1024

/-- The fused key|value block with its unit axis dropped. -/
def kv (x1 : Vec Ideal S1x2048x2048 .bf16) : FVec Ideal S2048x2048 .bf16 :=
  shapeCast S2048x2048 x1 shapeCasts_S1x2048x2048_S2048x2048

/-- The key half: lanes 0..1023. -/
def km (x1 : Vec Ideal S1x2048x2048 .bf16) : FVec Ideal S2048x1024 .bf16 :=
  extractStridedSlice S2048x1024 ![0, 0] (kv x1) slices_S2048x2048_o0_0_S2048x1024

/-- The value half: lanes 1024..2047. -/
def vm (x1 : Vec Ideal S1x2048x2048 .bf16) : FVec Ideal S2048x1024 .bf16 :=
  extractStridedSlice S2048x1024 ![0, 1024] (kv x1) slices_S2048x2048_o0_1024_S2048x1024

/-- The scaled scores. -/
def sc (x0 : Vec Ideal S1x1024x1024 .bf16) (x1 : Vec Ideal S1x2048x2048 .bf16) : FVec Ideal S1024x2048 .f32 :=
  mulf (matmul dot_S1024x1024_S2048x1024_S1024x2048_1_1_0_0_n_n none (qm x0) (km x1) (constant S1024x2048 .f32 0x00000000#32))
    (broadcast S1024x2048 (Scalar.ofBits .f32 0x3D000000#32))

/-- Each row's largest scaled score, along the row. -/
def mx (x0 : Vec Ideal S1x1024x1024 .bf16) (x1 : Vec Ideal S1x2048x2048 .bf16) : FVec Ideal S1024x2048 .f32 :=
  broadcastTo S1024x2048
    (shapeCast S1024x1 (multiReduction .maximumf [1] S1024 (sc x0 x1) 0xFF800000#32 reduces_S1024x2048_S1024 (.inl rfl) rfl)
      shapeCasts_S1024_S1024x1) broadcasts_S1024x1_S1024x2048

/-- The exponentials of the shifted scores. -/
def ee (x0 : Vec Ideal S1x1024x1024 .bf16) (x1 : Vec Ideal S1x2048x2048 .bf16) : FVec Ideal S1024x2048 .f32 :=
  exp (subf (sc x0 x1) (mx x0 x1))

/-- Each row's sum of exponentials, along the row. -/
def dn (x0 : Vec Ideal S1x1024x1024 .bf16) (x1 : Vec Ideal S1x2048x2048 .bf16) : FVec Ideal S1024x2048 .f32 :=
  broadcastTo S1024x2048
    (shapeCast S1024x1 (multiReduction .add [1] S1024 (ee x0 x1) 0x00000000#32 reduces_S1024x2048_S1024 (.inl rfl) rfl)
      shapeCasts_S1024_S1024x1) broadcasts_S1024x1_S1024x2048

/-- The weights. -/
def ww (x0 : Vec Ideal S1x1024x1024 .bf16) (x1 : Vec Ideal S1x2048x2048 .bf16) : FVec Ideal S1024x2048 .bf16 :=
  truncf .bf16 (divf (ee x0 x1) (dn x0 x1)) bitsLt_bf16_f32

/-- The payload is the weights times the value half, with the unit axis put back. -/
theorem pay_eq (x0 : Vec Ideal S1x1024x1024 .bf16) (x1 : Vec Ideal S1x2048x2048 .bf16) :
    k2_pay1 (F := Ideal) x0 x1
      = shapeCast S1x1024x1024
          (matmul dot_S1024x2048_S2048x1024_S1024x1024_1_0_0_1_n_n none (ww x0 x1) (vm x1) (constant S1024x1024 .f32 0x00000000#32))
          shapeCasts_S1024x1024_S1x1024x1024 := rfl

/-! ## Each array read at an index -/

/-- The query matrix at (r, j) is the block at (0, r, j). -/
theorem qm_apply (x0 : Vec Ideal S1x1024x1024 .bf16) (r j : Fin 1024) : qm x0 (ix2 r j) = x0 (ix3 (0 : Fin 1) r j) :=
  shapeCast_1ab_ab_apply x0 _ r j

/-- The key half at (c, j) is the fused block at (0, c, j). -/
theorem km_apply (x1 : Vec Ideal S1x2048x2048 .bf16) (c : Fin 2048) (j : Fin 1024) :
    km x1 (ix2 c j) = x1 (ix3 (0 : Fin 1) c (⟨j.val, by omega⟩ : Fin 2048)) :=
  (slice2_axis1_apply 0 (kv x1) _ c j (⟨j.val, by omega⟩ : Fin 2048) (Nat.zero_add _).symm).trans
    (shapeCast_1ab_ab_apply x1 _ c _)

/-- The value half at (c, j) is the fused block at (0, c, 1024 + j). -/
theorem vm_apply (x1 : Vec Ideal S1x2048x2048 .bf16) (c : Fin 2048) (j : Fin 1024) :
    vm x1 (ix2 c j) = x1 (ix3 (0 : Fin 1) c (⟨1024 + j.val, by omega⟩ : Fin 2048)) :=
  (slice2_axis1_apply 1024 (kv x1) _ c j (⟨1024 + j.val, by omega⟩ : Fin 2048) rfl).trans
    (shapeCast_1ab_ab_apply x1 _ c _)

/-- The scaled score at (r, c): the dot product of query row r with key row c, times the word of 1/32. -/
theorem sc_apply (x0 : Vec Ideal S1x1024x1024 .bf16) (x1 : Vec Ideal S1x2048x2048 .bf16) (r : Fin 1024) (c : Fin 2048) :
    sc x0 x1 (ix2 r c)
      = Cert.Attn.score (fun j => x0 (ix3 (0 : Fin 1) r j))
          (fun c j => x1 (ix3 (0 : Fin 1) c (⟨j.val, by omega⟩ : Fin 2048))) c := by
  show matmul dot_S1024x1024_S2048x1024_S1024x2048_1_1_0_0_n_n none (qm x0) (km x1) (constant S1024x2048 .f32 0x00000000#32) (ix2 r c)
      * Ideal.ofBits .f32 0x3D000000#32 = _
  rw [Cert.Lib.RowsDot.matmul_zero_apply dot_S1024x1024_S2048x1024_S1024x2048_1_1_0_0_n_n rfl rfl score_l0 score_l1 score_r0 score_r1
    none (qm x0) (km x1) r c]
  unfold Cert.Attn.score Cert.Attn.scale
  refine congrArg (· * Ideal.ofBits .f32 0x3D000000#32) (Finset.sum_congr rfl fun j _ => ?_)
  rw [qm_apply, km_apply]

/-- Each row's largest scaled score, at (r, c), is the largest score of query row r. -/
theorem mx_apply (x0 : Vec Ideal S1x1024x1024 .bf16) (x1 : Vec Ideal S1x2048x2048 .bf16) (r : Fin 1024) (c : Fin 2048) :
    mx x0 x1 (ix2 r c)
      = Cert.Attn.top (fun j => x0 (ix3 (0 : Fin 1) r j))
          (fun c j => x1 (ix3 (0 : Fin 1) c (⟨j.val, by omega⟩ : Fin 2048))) := by
  unfold mx
  refine (Cert.Lib.RowRead.broadcastTo_a1_ab_apply _ _ r c).trans ?_
  refine (Cert.Lib.RowRead.shapeCast_a_a1_apply _ _ r (0 : Fin 1)).trans ?_
  refine (Cert.Lib.RowMax.rowMax_apply (sc x0 x1) _ _ _ _ r).trans ?_
  unfold Cert.Attn.top Cert.Attn.negInf
  exact congrArg (fun f => Finset.fold max (Ideal.ofBits .f32 0xFF800000#32) f (Finset.univ : Finset (Fin 2048)))
    (funext fun k => sc_apply x0 x1 r k)

/-- The exponential at (r, c). -/
theorem ee_apply (x0 : Vec Ideal S1x1024x1024 .bf16) (x1 : Vec Ideal S1x2048x2048 .bf16) (r : Fin 1024) (c : Fin 2048) :
    ee x0 x1 (ix2 r c)
      = Cert.Attn.ex (fun j => x0 (ix3 (0 : Fin 1) r j))
          (fun c j => x1 (ix3 (0 : Fin 1) c (⟨j.val, by omega⟩ : Fin 2048))) c := by
  show Ideal.exp (sc x0 x1 (ix2 r c) - mx x0 x1 (ix2 r c)) = _
  rw [sc_apply, mx_apply]
  rfl

/-- Each row's sum of exponentials, at (r, c). -/
theorem dn_apply (x0 : Vec Ideal S1x1024x1024 .bf16) (x1 : Vec Ideal S1x2048x2048 .bf16) (r : Fin 1024) (c : Fin 2048) :
    dn x0 x1 (ix2 r c)
      = ∑ c' : Fin 2048, Cert.Attn.ex (fun j => x0 (ix3 (0 : Fin 1) r j))
          (fun c j => x1 (ix3 (0 : Fin 1) c (⟨j.val, by omega⟩ : Fin 2048))) c' := by
  unfold dn
  refine (Cert.Lib.RowRead.broadcastTo_a1_ab_apply _ _ r c).trans ?_
  refine (Cert.Lib.RowRead.shapeCast_a_a1_apply _ _ r (0 : Fin 1)).trans ?_
  refine (Cert.Lib.RowRead.rowSum_apply (ee x0 x1) _ _ _ _ r).trans ?_
  exact Finset.sum_congr rfl fun k _ => ee_apply x0 x1 r k

/-- The weight at (r, c). -/
theorem ww_apply (x0 : Vec Ideal S1x1024x1024 .bf16) (x1 : Vec Ideal S1x2048x2048 .bf16) (r : Fin 1024) (c : Fin 2048) :
    ww x0 x1 (ix2 r c)
      = Cert.Attn.weight (fun j => x0 (ix3 (0 : Fin 1) r j))
          (fun c j => x1 (ix3 (0 : Fin 1) c (⟨j.val, by omega⟩ : Fin 2048))) c := by
  show Ideal.div (ee x0 x1 (ix2 r c)) (dn x0 x1 (ix2 r c)) = _
  rw [ee_apply, dn_apply]
  rfl

/-! ## The body at an index -/

/-- The body at (0, r, h) is the context row of query row r at entry h, over the key and value halves of the fused block. -/
theorem pay_apply (x0 : Vec Ideal S1x1024x1024 .bf16) (x1 : Vec Ideal S1x2048x2048 .bf16) (r h : Fin 1024) :
    k2_pay1 (F := Ideal) x0 x1 (ix3 (0 : Fin 1) r h)
      = Cert.Attn.ctx (fun j => x0 (ix3 (0 : Fin 1) r j))
          (fun c j => x1 (ix3 (0 : Fin 1) c (⟨j.val, by omega⟩ : Fin 2048)))
          (fun c j => x1 (ix3 (0 : Fin 1) c (⟨1024 + j.val, by omega⟩ : Fin 2048))) h := by
  rw [pay_eq]
  refine (shapeCast_ab_1ab_apply _ _ (0 : Fin 1) r h).trans ?_
  refine (Cert.Lib.RowRead.matmul_zero_apply dot_S1024x2048_S2048x1024_S1024x1024_1_0_0_1_n_n rfl rfl ctx_l0 ctx_l1 ctx_r0 ctx_r1
    none (ww x0 x1) (vm x1) r h).trans ?_
  unfold Cert.Attn.ctx
  exact Finset.sum_congr rfl fun c _ => by rw [ww_apply, vm_apply]

end Cert.AttnBody

end
-- ==== Proof.AttnRegion.lean ====
/-
  The attention region, read as one array.

  The grid is (batch, query block): 4 batches, 2 blocks of 1024 query rows. At point (b, qi) the query block is rows
  1024 qi .. 1024 qi + 1023 of batch b of the projected queries, the key|value block is ALL 2048 rows of batch b of
  the fused projected keys and values (lanes 0..1023 the key, lanes 1024..2047 the value), and the output block is
  the same rows of batch b of the result. The body's payload at (0, r, h) is the context row of query row r at entry h
  (the body module), so what a point writes back is a block of ONE function of the two arrays the region is entered
  with: at (b, s, h) the context of query row (b, s) against the keys and values of batch b. The eight blocks tile the
  result, so after the region the result array is that function, whatever the entry contents.
-/
import proofs.«119906_j20186346292012_2_alg».proof.Proof.Gen.KernelIdeal.Frame
import proofs.«119906_j20186346292012_2_alg».proof.Proof.AttnBody
import Idealize.ShloMosaic.Lib.Pipeline.Value
import Idealize.ShloMosaic.Lib.ValueIdx

set_option maxRecDepth 16384

noncomputable section

namespace Cert.KernelIdeal.AttnRegion

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offs_zero : (![0, 0, 0] : Fin 3 → Nat) = fun _ => 0 := funext fun a => by fin_cases a <;> rfl

/-- The attended array: at (b, s, h), the context of query row (b, s) of Q against the key lanes and the value lanes of
    batch b of KV, at entry h. -/
def attended (Q : S4x2048x1024.Idx → EReal) (KV : S4x2048x2048.Idx → EReal) : S4x2048x1024.Idx → EReal :=
  fun i => Cert.Attn.ctx (fun j => Q (ix3 (i 0) (i 1) j))
    (fun c j => KV (ix3 (i 0) c (⟨j.val, by omega⟩ : Fin 2048)))
    (fun c j => KV (ix3 (i 0) c (⟨1024 + j.val, by omega⟩ : Fin 2048))) (i 2)

/-- The body's payload at any index of the block: its leading coordinate is the one of a unit axis. -/
theorem pay_at (x0 : Vec Ideal S1x1024x1024 .bf16) (x1 : Vec Ideal S1x2048x2048 .bf16) (j : S1x1024x1024.Idx) :
    k2_pay1 (F := Ideal) x0 x1 j
      = Cert.Attn.ctx (fun jj => x0 (ix3 (0 : Fin 1) (j 1) jj))
          (fun c jj => x1 (ix3 (0 : Fin 1) c (⟨jj.val, by omega⟩ : Fin 2048)))
          (fun c jj => x1 (ix3 (0 : Fin 1) c (⟨1024 + jj.val, by omega⟩ : Fin 2048))) (j 2) := by
  obtain ⟨u, r, h, rfl⟩ : ∃ (u : Fin 1) (r h : Fin 1024), j = ix3 u r h := ⟨j 0, j 1, j 2, eq_ix3 j⟩
  obtain rfl : u = 0 := Subsingleton.elim _ _
  exact Cert.AttnBody.pay_apply x0 x1 r h

/-- The printed index maps over the eight points: the query block moves with the output block, the key|value block
    with its batch only, every lane-block index is zero. -/
theorem idx_facts : ∀ t : Fin cfg2.N, win2_0.index t (0 : Fin 3) = win2_2.index t (0 : Fin 3)
    ∧ win2_0.index t (1 : Fin 3) = win2_2.index t (1 : Fin 3)
    ∧ win2_0.index t (2 : Fin 3) = 0
    ∧ win2_1.index t (0 : Fin 3) = win2_2.index t (0 : Fin 3)
    ∧ win2_1.index t (1 : Fin 3) = 0 ∧ win2_1.index t (2 : Fin 3) = 0
    ∧ win2_2.index t (2 : Fin 3) = 0 ∧ win2_2.index t (0 : Fin 3) ≤ 3 ∧ win2_2.index t (1 : Fin 3) ≤ 1 :=
  (by decide +kernel : ∀ t : Fin grid2.N, _)

/-- Every (batch, query block) pair is some point's. -/
theorem idx_onto : ∀ (q0 : Fin 4) (q1 : Fin 2), ∃ t : Fin cfg2.N, win2_2.index t = ![q0.val, q1.val, 0] :=
  (by decide +kernel : ∀ (q0 : Fin 4) (q1 : Fin 2), ∃ t : Fin grid2.N, win2_2.index t = ![q0.val, q1.val, 0])

/-- What point t writes back is block t of the attended array of the entry arrays. -/
theorem flushed_eq (c : Dev nD) (t : Fin cfg2.N) :
    (dat2 V c).flushed 2 t = ((cfg2.win 2).blk t).view.read (Elt Ideal) (attended (V c main_v13) (V c main_v14)) := by
  show (cfg2.win 2).cut (grid2.coords t) ((dat2 V c).after 2 t) = _
  rw [after2_2]
  unfold out2_2
  rw [View.canon_unit_zero offs_zero]
  simp only [View.ld_unit_zero (S := S1x1024x1024) offs_zero, View.ld_unit_zero (S := S1x2048x2048) offs_zero]
  obtain ⟨e0, e1, e2, e3, e4, e5, e6, e7, e8⟩ := idx_facts t
  funext j
  show k2_pay1 (F := Ideal) (iblk2 V c 0 t) (iblk2 V c 1 t) j = attended (V c main_v13) (V c main_v14) (((cfg2.win 2).blk t).view.emb j)
  refine (pay_at (iblk2 V c 0 t) (iblk2 V c 1 t) j).trans ?_
  unfold attended
  have hQ : ∀ jj : Fin 1024, ((cfg2.win 0).blk t).view.emb (ix3 (0 : Fin 1) (j 1) jj)
      = ix3 ((((cfg2.win 2).blk t).view.emb j) 0) ((((cfg2.win 2).blk t).view.emb j) 1) jj := by
    intro jj; funext a; apply Fin.ext
    match a with
    | ⟨0, _⟩ => show win2_0.index t (0 : Fin 3) * 1 + 1 * 0 = win2_2.index t (0 : Fin 3) * 1 + 1 * (j 0).val; have hj0 : (j 0).val < 1 := (j 0).isLt; omega
    | ⟨1, _⟩ => show win2_0.index t (1 : Fin 3) * 1024 + 1 * (j 1).val = win2_2.index t (1 : Fin 3) * 1024 + 1 * (j 1).val; omega
    | ⟨2, _⟩ => show win2_0.index t (2 : Fin 3) * 1024 + 1 * jj.val = jj.val; omega
  have hKV : ∀ (c' : Fin 2048) (l : Fin 2048), ((cfg2.win 1).blk t).view.emb (ix3 (0 : Fin 1) c' l)
      = ix3 ((((cfg2.win 2).blk t).view.emb j) 0) c' l := by
    intro c' l; funext a; apply Fin.ext
    match a with
    | ⟨0, _⟩ => show win2_1.index t (0 : Fin 3) * 1 + 1 * 0 = win2_2.index t (0 : Fin 3) * 1 + 1 * (j 0).val; have hj0 : (j 0).val < 1 := (j 0).isLt; omega
    | ⟨1, _⟩ => show win2_1.index t (1 : Fin 3) * 2048 + 1 * c'.val = c'.val; omega
    | ⟨2, _⟩ => show win2_1.index t (2 : Fin 3) * 2048 + 1 * l.val = l.val; omega
  have h2 : (j 2 : Fin 1024) = (((cfg2.win 2).blk t).view.emb j) 2 := Fin.ext (by
    show (j 2).val = win2_2.index t (2 : Fin 3) * 1024 + 1 * (j 2).val; omega)
  refine congr (congr (congr (congrArg Cert.Attn.ctx ?_) ?_) ?_) h2
  · exact funext fun jj => congrArg (V c main_v13) (hQ jj)
  · exact funext fun c' => funext fun jj => congrArg (V c main_v14) (hKV c' _)
  · exact funext fun c' => funext fun jj => congrArg (V c main_v14) (hKV c' _)

/-- An index of the result is in point t's block iff each coordinate is in the block's range on its axis. -/
theorem mem_blk (t : Fin cfg2.N) (i : S4x2048x1024.Idx) :
    i ∈ ((cfg2.win 2).blk t).view.set ↔ ∀ a : Fin 3, win2_2.index t a * S1x1024x1024.size a ≤ (i a).val ∧ (i a).val < win2_2.index t a * S1x1024x1024.size a + S1x1024x1024.size a := by
  show i ∈ ((View.whole main_v15).slice (win2_2.rect t)).set ↔ _
  rw [View.set_slice_whole, Rect.mem_set_unit]
  exact Iff.rfl

/-- Every index of the result is in the block of the point of its batch and query block. -/
theorem cover (i : S4x2048x1024.Idx) : ∃ t : Fin cfg2.N, (cfg2.win 2).flush t = true ∧ i ∈ ((cfg2.win 2).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, by omega⟩ ⟨(i 1).val / 1024, by omega⟩
  have q0 : win2_2.index t (0 : Fin 3) = (i 0).val := congrFun ht 0
  have q1 : win2_2.index t (1 : Fin 3) = (i 1).val / 1024 := congrFun ht 1
  have q2 : win2_2.index t (2 : Fin 3) = 0 := congrFun ht 2
  refine ⟨t, flush2_2 t, ?_⟩
  rw [mem_blk]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 1024 ≤ (i 1).val ∧ (i 1).val < win2_2.index t (1 : Fin 3) * 1024 + 1024; omega
  | ⟨2, _⟩ => show win2_2.index t (2 : Fin 3) * 1024 ≤ (i 2).val ∧ (i 2).val < win2_2.index t (2 : Fin 3) * 1024 + 1024; omega

/-- The result array after the region: the attended array of the entry arrays. -/
theorem final (c : Dev nD) : (dat2 V c).arrAt 2 cfg2.N = attended (V c main_v13) (V c main_v14) :=
  (dat2 V c).arrAt_eq_of_cover 2 (attended (V c main_v13) (V c main_v14)) (fun t _ => flushed_eq V c t) cover

end Cert.KernelIdeal.AttnRegion

end
-- ==== Proof.EntryArrays.lean ====
import proofs.«119906_j20186346292012_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! ## The arrays region 0 enters with, as terms of the launch memory's argument arrays -/

/-- The first argument viewed as 8192 rows of 1024. -/
theorem v7_arr : (V1 m ρ c main_v7 : S8192x1024.Idx → EReal)
    = shapeCast S8192x1024 (m ((c : Thread nD τ).loc main_arg0) : S4x2048x1024.Idx → EReal) shapeCasts_S4x2048x1024_S8192x1024 := by
  dsimp only [V1, W1, W0, hostOps0]
  after_results
  rfl

/-- The third argument transposed (the narrowing of the format is the identity on extended reals). -/
theorem v1_arr : (V1 m ρ c main_v1 : S1024x1024.Idx → EReal)
    = transpose S1024x1024 [1, 0] (m ((c : Thread nD τ).loc main_arg2) : S1024x1024.Idx → EReal) transposes_S1024x1024_S1024x1024_1_0 := by
  dsimp only [V1, W1, W0, hostOps0]
  after_results
  rfl

/-- The fourth argument viewed as one row. -/
theorem v9_arr : (V1 m ρ c main_v9 : S1x1024.Idx → EReal)
    = shapeCast S1x1024 (m ((c : Thread nD τ).loc main_arg3) : S1024.Idx → EReal) shapeCasts_S1024_S1x1024 := by
  dsimp only [V1, W1, W0, hostOps0]
  after_results
  rfl

/-! ## The arrays region 1 enters with: none of them is an array of region 0, so each holds what the host wrote -/

/-- The second argument viewed as 8192 rows of 1024. -/
theorem v8_arr : (V3 m ρ c main_v8 : S8192x1024.Idx → EReal)
    = shapeCast S8192x1024 (m ((c : Thread nD τ).loc main_arg1) : S4x2048x1024.Idx → EReal) shapeCasts_S4x2048x1024_S8192x1024 := by
  dsimp only [V3, W3, hostOps1]
  after_results
  rw [W2_of_ne m ρ c main_v8 (by decide)]
  dsimp only [W1, W0, hostOps0]
  after_results
  rfl

/-- The fifth and seventh arguments, each transposed, side by side. -/
theorem v5_arr : (V3 m ρ c main_v5 : S1024x2048.Idx → EReal)
    = concatenate S1024x2048 1 [⟨S1024x1024, transpose S1024x1024 [1, 0] (m ((c : Thread nD τ).loc main_arg4) : S1024x1024.Idx → EReal) transposes_S1024x1024_S1024x1024_1_0⟩,
        ⟨S1024x1024, transpose S1024x1024 [1, 0] (m ((c : Thread nD τ).loc main_arg6) : S1024x1024.Idx → EReal) transposes_S1024x1024_S1024x1024_1_0⟩]
        concatenates_S1024x1024_S1024x1024_S1024x2048_d1 := by
  dsimp only [V3, W3, hostOps1]
  after_results
  rw [W2_of_ne m ρ c main_v5 (by decide)]
  dsimp only [W1, W0, hostOps0]
  after_results
  rfl

/-- The sixth and eighth arguments one after the other, viewed as one row. -/
theorem v11_arr : (V3 m ρ c main_v11 : S1x2048.Idx → EReal)
    = shapeCast S1x2048 (concatenate S2048 0 [⟨S1024, (m ((c : Thread nD τ).loc main_arg5) : S1024.Idx → EReal)⟩, ⟨S1024, (m ((c : Thread nD τ).loc main_arg7) : S1024.Idx → EReal)⟩]
        concatenates_S1024_S1024_S2048_d0) shapeCasts_S2048_S1x2048 := by
  dsimp only [V3, W3, hostOps1]
  after_results
  rw [W2_of_ne m ρ c main_v6 (by decide)]
  dsimp only [W1, W0, hostOps0]
  after_results
  rfl

/-! ## Read at an index -/

/-- Row b * 2048 + s of the 8192 is row (b, s) of the first argument. -/
theorem v7_apply (b : Fin 4) (s : Fin 2048) (d : Fin 1024) :
    (V1 m ρ c main_v7 : S8192x1024.Idx → EReal) (ix2 (⟨b.val * 2048 + s.val, by omega⟩ : Fin 8192) d)
      = (m ((c : Thread nD τ).loc main_arg0) : S4x2048x1024.Idx → EReal) (ix3 b s d) := by
  rw [v7_arr]
  refine shapeCast_apply (s := S4x2048x1024) (t := S8192x1024) _ _ _ (ix3 b s d) ?_
  rw [Shape.rowMajor_val_three, Shape.rowMajor_val_two]
  rfl

/-- Entry (d, h) of the transposed weights is entry (h, d) of the third argument. -/
theorem v1_apply (d h : Fin 1024) :
    (V1 m ρ c main_v1 : S1024x1024.Idx → EReal) (ix2 d h) = (m ((c : Thread nD τ).loc main_arg2) : S1024x1024.Idx → EReal) (ix2 h d) := by
  rw [v1_arr]
  exact transpose_ix2_apply _ _ d h

/-- Entry h of the one row is entry h of the fourth argument. -/
theorem v9_apply (h : Fin 1024) :
    (V1 m ρ c main_v9 : S1x1024.Idx → EReal) (ix2 (0 : Fin 1) h) = (m ((c : Thread nD τ).loc main_arg3) : S1024.Idx → EReal) (ix1 h) := by
  rw [v9_arr]
  exact shapeCast_a_1a_apply _ _ 0 h

/-- Row b * 2048 + s of the 8192 is row (b, s) of the second argument. -/
theorem v8_apply (b : Fin 4) (s : Fin 2048) (d : Fin 1024) :
    (V3 m ρ c main_v8 : S8192x1024.Idx → EReal) (ix2 (⟨b.val * 2048 + s.val, by omega⟩ : Fin 8192) d)
      = (m ((c : Thread nD τ).loc main_arg1) : S4x2048x1024.Idx → EReal) (ix3 b s d) := by
  rw [v8_arr]
  refine shapeCast_apply (s := S4x2048x1024) (t := S8192x1024) _ _ _ (ix3 b s d) ?_
  rw [Shape.rowMajor_val_three, Shape.rowMajor_val_two]
  rfl

/-- The first 1024 columns are the fifth argument transposed. -/
theorem v5_key_apply (d j : Fin 1024) :
    (V3 m ρ c main_v5 : S1024x2048.Idx → EReal) (ix2 d (⟨j.val, by omega⟩ : Fin 2048)) = (m ((c : Thread nD τ).loc main_arg4) : S1024x1024.Idx → EReal) (ix2 j d) := by
  rw [v5_arr]
  have e := concatenate_pair_apply_left (t := S1024x2048) (s₁ := S1024x1024) (s₂ := S1024x1024) 1
    (transpose S1024x1024 [1, 0] (m ((c : Thread nD τ).loc main_arg4) : S1024x1024.Idx → EReal) transposes_S1024x1024_S1024x1024_1_0) (transpose S1024x1024 [1, 0] (m ((c : Thread nD τ).loc main_arg6) : S1024x1024.Idx → EReal) transposes_S1024x1024_S1024x1024_1_0)
    concatenates_S1024x1024_S1024x1024_S1024x2048_d1 (ix2 d (⟨j.val, by omega⟩ : Fin 2048)) rfl (ix2 d j)
    (fun b => match b with | ⟨0, _⟩ => rfl | ⟨1, _⟩ => rfl)
  exact e.trans (transpose_ix2_apply _ _ d j)

/-- The last 1024 columns are the seventh argument transposed. -/
theorem v5_value_apply (d j : Fin 1024) :
    (V3 m ρ c main_v5 : S1024x2048.Idx → EReal) (ix2 d (⟨1024 + j.val, by omega⟩ : Fin 2048)) = (m ((c : Thread nD τ).loc main_arg6) : S1024x1024.Idx → EReal) (ix2 j d) := by
  rw [v5_arr]
  have e := concatenate_pair_apply_right (t := S1024x2048) (s₁ := S1024x1024) (s₂ := S1024x1024) 1
    (transpose S1024x1024 [1, 0] (m ((c : Thread nD τ).loc main_arg4) : S1024x1024.Idx → EReal) transposes_S1024x1024_S1024x1024_1_0) (transpose S1024x1024 [1, 0] (m ((c : Thread nD τ).loc main_arg6) : S1024x1024.Idx → EReal) transposes_S1024x1024_S1024x1024_1_0)
    concatenates_S1024x1024_S1024x1024_S1024x2048_d1 (ix2 d (⟨1024 + j.val, by omega⟩ : Fin 2048)) rfl rfl (ix2 d j)
    (fun b hb => match b, hb with | ⟨0, _⟩, _ => rfl | ⟨1, _⟩, hb => absurd rfl hb)
    (show j.val + 1024 = 1024 + j.val from Nat.add_comm _ _)
  exact e.trans (transpose_ix2_apply _ _ d j)

/-- The first 1024 entries of the row are the sixth argument. -/
theorem v11_key_apply (j : Fin 1024) :
    (V3 m ρ c main_v11 : S1x2048.Idx → EReal) (ix2 (0 : Fin 1) (⟨j.val, by omega⟩ : Fin 2048)) = (m ((c : Thread nD τ).loc main_arg5) : S1024.Idx → EReal) (ix1 j) := by
  rw [v11_arr]
  refine (shapeCast_a_1a_apply _ _ 0 _).trans ?_
  exact concatenate_pair_apply_left (t := S2048) (s₁ := S1024) (s₂ := S1024) 0 (m ((c : Thread nD τ).loc main_arg5) : S1024.Idx → EReal) (m ((c : Thread nD τ).loc main_arg7) : S1024.Idx → EReal)
    concatenates_S1024_S1024_S2048_d0 (ix1 (⟨j.val, by omega⟩ : Fin 2048)) rfl (ix1 j)
    (fun b => match b with | ⟨0, _⟩ => rfl)

/-- The last 1024 entries of the row are the eighth argument. -/
theorem v11_value_apply (j : Fin 1024) :
    (V3 m ρ c main_v11 : S1x2048.Idx → EReal) (ix2 (0 : Fin 1) (⟨1024 + j.val, by omega⟩ : Fin 2048)) = (m ((c : Thread nD τ).loc main_arg7) : S1024.Idx → EReal) (ix1 j) := by
  rw [v11_arr]
  refine (shapeCast_a_1a_apply _ _ 0 _).trans ?_
  exact concatenate_pair_apply_right (t := S2048) (s₁ := S1024) (s₂ := S1024) 0 (m ((c : Thread nD τ).loc main_arg5) : S1024.Idx → EReal) (m ((c : Thread nD τ).loc main_arg7) : S1024.Idx → EReal)
    concatenates_S1024_S1024_S2048_d0 (ix1 (⟨1024 + j.val, by omega⟩ : Fin 2048)) rfl rfl (ix1 j)
    (fun b hb => match b, hb with | ⟨0, _⟩, hb => absurd rfl hb)
    (show j.val + 1024 = 1024 + j.val from Nat.add_comm _ _)

end Cert.KernelIdeal.Entry

end
-- ==== Proof.LastEntry.lean ====
/-
  What the last region finds in its two input arrays, entry by entry.

  Between the second region and the third the host reshapes two arrays: the [8192, 1024] array the first region
  wrote becomes the [4, 2048, 1024] array of queries, and the [8192, 2048] array the second region wrote becomes the
  [4, 2048, 2048] array of fused keys and values. A reshape keeps the row-major order, so entry (b, s, h) of the
  result is entry (b * 2048 + s, h) of the operand. The first operand is not an array of the second region and the
  host operation before that region does not write it, so it still holds what the first region left.
-/
import proofs.«119906_j20186346292012_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.LastEntry

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! ## The two arrays as reshapes -/

/-- The fused key|value array at the last region's entry is the reshape of what the second region left. -/
theorem v14_eq :
    (V5 m ρ c main_v14 : S4x2048x2048.Idx → EReal)
      = shapeCast S4x2048x2048 (V4 m ρ c main_v12 : S8192x2048.Idx → EReal) shapeCasts_S8192x2048_S4x2048x2048 := by
  dsimp only [V5, W5, hostOps2]
  after_results
  rfl

/-- The query array at the last region's entry is the reshape of what the first region left: neither the second
    region nor the host operation before it writes the operand. -/
theorem v13_eq :
    (V5 m ρ c main_v13 : S4x2048x1024.Idx → EReal)
      = shapeCast S4x2048x1024 (V2 m ρ c main_v10 : S8192x1024.Idx → EReal) shapeCasts_S8192x1024_S4x2048x1024 := by
  dsimp only [V5, W5, hostOps2]
  after_results
  rw [W4_of_ne m ρ c main_v10 (by decide)]
  dsimp only [W3, hostOps1]
  after_results
  rfl

/-! ## A [8192, n] array reshaped to [4, 2048, n], at an index -/

/-- Entry (b, s, h) of the reshape is entry (b * 2048 + s, h) of the operand: both sit at row-major position
    (b * 2048 + s) * n + h. -/
theorem reshape_apply {α : Type} {n : ℕ} (x : (⟨2, ![8192, n]⟩ : Shape).Idx → α)
    (hc : (⟨2, ![8192, n]⟩ : Shape).ShapeCasts ⟨3, ![4, 2048, n]⟩) (b : Fin 4) (s : Fin 2048) (h : Fin n) :
    shapeCast ⟨3, ![4, 2048, n]⟩ x hc (ix3 b s h) = x (ix2 (⟨b.val * 2048 + s.val, by omega⟩ : Fin 8192) h) :=
  shapeCast_apply x hc _ _ (by
    rw [Shape.rowMajor_val_two, Shape.rowMajor_val_three]
    show (b.val * 2048 + s.val) * n + h.val = (b.val * 2048 + s.val) * n + h.val
    rfl)

/-! ## The two arrays at an index -/

/-- The query array at (b, s, h) is the first region's output at (b * 2048 + s, h). -/
theorem v13_apply (b : Fin 4) (s : Fin 2048) (h : Fin 1024) :
    (V5 m ρ c main_v13 : S4x2048x1024.Idx → EReal) (ix3 b s h)
      = (V2 m ρ c main_v10 : S8192x1024.Idx → EReal) (ix2 (⟨b.val * 2048 + s.val, by omega⟩ : Fin 8192) h) := by
  rw [v13_eq]
  exact reshape_apply _ _ b s h

/-- The fused key|value array at (b, s, j) is the second region's output at (b * 2048 + s, j). -/
theorem v14_apply (b : Fin 4) (s : Fin 2048) (j : Fin 2048) :
    (V5 m ρ c main_v14 : S4x2048x2048.Idx → EReal) (ix3 b s j)
      = (V4 m ρ c main_v12 : S8192x2048.Idx → EReal) (ix2 (⟨b.val * 2048 + s.val, by omega⟩ : Fin 8192) j) := by
  rw [v14_eq]
  exact reshape_apply _ _ b s j

end Cert.KernelIdeal.LastEntry

end
-- ==== Proof.SpecArray.lean ====
/-
  The specification as one array: entry (b, s, h) of the result, of the eight argument arrays read by coordinates.
  Both programs' runs are stated with this term, so that the two results are equal by construction.
-/
import proofs.«119906_j20186346292012_2_alg».proof.Proof.Spec
import Idealize.ShloMosaic.Lib.ValueIdx

noncomputable section

namespace Cert.Attn

open Idealize.ShloMosaic Idealize.ShloMosaic.ValueIdx

/-- The result array: at (b, s, h) the attention output of batch b, query row s, entry h, the arrays q, x, Wq, bq, Wk,
    bk, Wv, bv read at their coordinates. -/
def outArr (x0 x1 : (⟨3, ![4, 2048, 1024]⟩ : Shape).Idx → EReal) (x2 : (⟨2, ![1024, 1024]⟩ : Shape).Idx → EReal)
    (x3 : (⟨1, ![1024]⟩ : Shape).Idx → EReal) (x4 : (⟨2, ![1024, 1024]⟩ : Shape).Idx → EReal) (x5 : (⟨1, ![1024]⟩ : Shape).Idx → EReal)
    (x6 : (⟨2, ![1024, 1024]⟩ : Shape).Idx → EReal) (x7 : (⟨1, ![1024]⟩ : Shape).Idx → EReal) :
    (⟨3, ![4, 2048, 1024]⟩ : Shape).Idx → EReal :=
  fun i => out (fun b s d => x0 (ix3 b s d)) (fun b s d => x1 (ix3 b s d)) (fun h d => x2 (ix2 h d)) (fun h => x3 (ix1 h))
    (fun h d => x4 (ix2 h d)) (fun h => x5 (ix1 h)) (fun h d => x6 (ix2 h d)) (fun h => x7 (ix1 h)) (i 0) (i 1) (i 2)

end Cert.Attn

end
-- ==== Proof.KernelValue.lean ====
/-
  The idealized kernel's result array as the specification of the launch memory's arguments.

  The last region leaves in the result array the attended array of its two entry arrays. Its query entry array is the
  first region's output re-laid from [8192, 1024] to [4, 2048, 1024]; that output is the projected matrix of the
  flattened queries, the transposed query weights and the query bias, so its row (b, s) is the query projection of row
  (b, s) of q. Its key|value entry array is the second region's output re-laid likewise; that output is the projected
  matrix of the flattened x against the transposed key weights beside the transposed value weights, with the key bias
  beside the value bias, so lanes 0..1023 of its row (b, c) are the key projection of row (b, c) of x and lanes
  1024..2047 the value projection. Substituting, entry (b, s, h) of the result is the specification's.
-/
import proofs.«119906_j20186346292012_2_alg».proof.Proof.QueryProj
import proofs.«119906_j20186346292012_2_alg».proof.Proof.KeyValueProj
import proofs.«119906_j20186346292012_2_alg».proof.Proof.AttnRegion
import proofs.«119906_j20186346292012_2_alg».proof.Proof.EntryArrays
import proofs.«119906_j20186346292012_2_alg».proof.Proof.LastEntry
import proofs.«119906_j20186346292012_2_alg».proof.Proof.SpecArray

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- Row (b, s) of the last region's query entry array is the query projection of row (b, s) of q. -/
theorem query_row (b : Fin 4) (s : Fin 2048) (j : Fin 1024) :
    (V5 m ρ c main_v13 : S4x2048x1024.Idx → EReal) (ix3 b s j)
      = Cert.Attn.linear (fun d => (m ((c : Thread nD τ).loc main_arg0) : S4x2048x1024.Idx → EReal) (ix3 b s d))
          (fun h d => (m ((c : Thread nD τ).loc main_arg2) : S1024x1024.Idx → EReal) (ix2 h d))
          (fun h => (m ((c : Thread nD τ).loc main_arg3) : S1024.Idx → EReal) (ix1 h)) j := by
  rw [Cert.KernelIdeal.LastEntry.v13_apply m ρ c b s j]
  have e : (V2 m ρ c main_v10 : S8192x1024.Idx → EReal)
      = Cert.KernelIdeal.QueryProj.proj (V1 m ρ c main_v7) (V1 m ρ c main_v1) (V1 m ρ c main_v9) :=
    (hF0 m ρ c 3).symm.trans (Cert.KernelIdeal.QueryProj.final (V1 m ρ) c)
  rw [e]
  unfold Cert.KernelIdeal.QueryProj.proj Cert.Attn.linear
  refine congrArg₂ (fun a b : EReal => a + b) (Finset.sum_congr rfl fun k _ => ?_) ?_
  · exact congrArg₂ (fun a b : EReal => a * b) (Cert.KernelIdeal.Entry.v7_apply m ρ c b s k) (Cert.KernelIdeal.Entry.v1_apply m ρ c k j)
  · exact Cert.KernelIdeal.Entry.v9_apply m ρ c j

/-- Lanes 0..1023 of row (b, r) of the last region's key|value entry array are the key projection of row (b, r) of x. -/
theorem key_row (b : Fin 4) (r : Fin 2048) (j : Fin 1024) :
    (V5 m ρ c main_v14 : S4x2048x2048.Idx → EReal) (ix3 b r (⟨j.val, by omega⟩ : Fin 2048))
      = Cert.Attn.linear (fun d => (m ((c : Thread nD τ).loc main_arg1) : S4x2048x1024.Idx → EReal) (ix3 b r d))
          (fun h d => (m ((c : Thread nD τ).loc main_arg4) : S1024x1024.Idx → EReal) (ix2 h d))
          (fun h => (m ((c : Thread nD τ).loc main_arg5) : S1024.Idx → EReal) (ix1 h)) j := by
  rw [Cert.KernelIdeal.LastEntry.v14_apply m ρ c b r _]
  have e : (V4 m ρ c main_v12 : S8192x2048.Idx → EReal)
      = Cert.KernelIdeal.KeyValueProj.proj (V3 m ρ c main_v8) (V3 m ρ c main_v5) (V3 m ρ c main_v11) :=
    (hF1 m ρ c 3).symm.trans (Cert.KernelIdeal.KeyValueProj.final (V3 m ρ) c)
  rw [e]
  unfold Cert.KernelIdeal.KeyValueProj.proj Cert.Attn.linear
  refine congrArg₂ (fun a b : EReal => a + b) (Finset.sum_congr rfl fun k _ => ?_) ?_
  · exact congrArg₂ (fun a b : EReal => a * b) (Cert.KernelIdeal.Entry.v8_apply m ρ c b r k) (Cert.KernelIdeal.Entry.v5_key_apply m ρ c k j)
  · exact Cert.KernelIdeal.Entry.v11_key_apply m ρ c j

/-- Lanes 1024..2047 of that row are the value projection of row (b, r) of x. -/
theorem value_row (b : Fin 4) (r : Fin 2048) (j : Fin 1024) :
    (V5 m ρ c main_v14 : S4x2048x2048.Idx → EReal) (ix3 b r (⟨1024 + j.val, by omega⟩ : Fin 2048))
      = Cert.Attn.linear (fun d => (m ((c : Thread nD τ).loc main_arg1) : S4x2048x1024.Idx → EReal) (ix3 b r d))
          (fun h d => (m ((c : Thread nD τ).loc main_arg6) : S1024x1024.Idx → EReal) (ix2 h d))
          (fun h => (m ((c : Thread nD τ).loc main_arg7) : S1024.Idx → EReal) (ix1 h)) j := by
  rw [Cert.KernelIdeal.LastEntry.v14_apply m ρ c b r _]
  have e : (V4 m ρ c main_v12 : S8192x2048.Idx → EReal)
      = Cert.KernelIdeal.KeyValueProj.proj (V3 m ρ c main_v8) (V3 m ρ c main_v5) (V3 m ρ c main_v11) :=
    (hF1 m ρ c 3).symm.trans (Cert.KernelIdeal.KeyValueProj.final (V3 m ρ) c)
  rw [e]
  unfold Cert.KernelIdeal.KeyValueProj.proj Cert.Attn.linear
  refine congrArg₂ (fun a b : EReal => a + b) (Finset.sum_congr rfl fun k _ => ?_) ?_
  · exact congrArg₂ (fun a b : EReal => a * b) (Cert.KernelIdeal.Entry.v8_apply m ρ c b r k) (Cert.KernelIdeal.Entry.v5_value_apply m ρ c k j)
  · exact Cert.KernelIdeal.Entry.v11_value_apply m ρ c j

/-- The result array after the run is the specification of the launch memory's arguments. -/
theorem result_eq :
    (W6 m ρ c (Proc.devRef .tc main_v15) : S4x2048x1024.Idx → EReal)
      = Cert.Attn.outArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  have h6 : (W6 m ρ c (Proc.devRef .tc main_v15) : S4x2048x1024.Idx → EReal)
      = Cert.KernelIdeal.AttnRegion.attended (V5 m ρ c main_v13) (V5 m ρ c main_v14) :=
    (W6_arr m ρ c 2).trans (Cert.KernelIdeal.AttnRegion.final (V5 m ρ) c)
  rw [h6]
  funext i
  obtain ⟨b, s, h, rfl⟩ : ∃ (b : Fin 4) (s : Fin 2048) (h : Fin 1024), i = ix3 b s h := ⟨i 0, i 1, i 2, eq_ix3 i⟩
  unfold Cert.KernelIdeal.AttnRegion.attended Cert.Attn.outArr Cert.Attn.out
  refine congrFun (congr (congr (congrArg Cert.Attn.ctx ?_) ?_) ?_) h
  · exact funext fun j => query_row m ρ c b s j
  · exact funext fun r => funext fun j => key_row m ρ c b r j
  · exact funext fun r => funext fun j => value_row m ρ c b r j

end Cert.KernelIdeal.Whole

end
-- ==== Proof.RefSpec.lean ====
/-
  The reference program's result, entry by entry, is the specification.

  The reference projects x by the key weights and bias, x by the value weights and bias and q by the query weights and
  bias (each a contraction over the last axes plus the bias broadcast along the rows), contracts the projected queries
  with the projected keys over their last axes, multiplies by 1 / sqrt 1024, subtracts from each row its maximum over
  the keys (a fold of max from minus infinity; taking max with minus infinity once more changes nothing), exponentiates,
  divides by the row's sum (the sum from the zero word is the plain sum) and contracts the weights with the projected
  values over the keys. The words 0x3F800000, 0x44800000 and 0x3D000000 denote 1, 1024 and 1/32, and sqrt 1024 = 32,
  so the scale is the specification's. Each stage is read at explicit coordinates and the readings are composed.
-/
import proofs.«119906_j20186346292012_2_alg».proof.Proof.Gen.ReferenceIdeal.Read
import proofs.«119906_j20186346292012_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.RefSpec

open Idealize.ShloMosaic Idealize.ShloMosaic.ValueIdx Cert.ReferenceIdeal Cert.ReferenceIdeal.Gen Cert.ReferenceIdeal.Read

/-! ## The constants -/

/-- The word 0x3F800000 denotes 1. -/
theorem ofBits_one : Ideal.ofBits .f32 0x3F800000#32 = ((1 : ℝ) : EReal) := by
  simp [Ideal.ofBits, Ideal.ieee, -EReal.coe_mul]; norm_num

/-- The word 0x44800000 denotes 1024. -/
theorem ofBits_1024 : Ideal.ofBits .f32 0x44800000#32 = ((1024 : ℝ) : EReal) := by
  simp [Ideal.ofBits, Ideal.ieee, -EReal.coe_mul]; norm_num

/-- The word 0x3D000000 denotes 1/32. -/
theorem ofBits_inv32 : Ideal.ofBits .f32 0x3D000000#32 = ((1 / 32 : ℝ) : EReal) := by
  simp [Ideal.ofBits, Ideal.ieee, -EReal.coe_mul]; norm_num

/-- The word 0xFF800000 denotes minus infinity. -/
theorem ofBits_negInf : Ideal.ofBits .f32 0xFF800000#32 = (⊥ : EReal) := by
  simp [Ideal.ofBits, Ideal.ieee]

/-- The square root of 1024 is 32. -/
theorem sqrt_1024 : Real.sqrt 1024 = 32 := by
  rw [show (1024 : ℝ) = 32 ^ 2 by norm_num]
  exact Real.sqrt_sq (by norm_num)

/-- 1 / sqrt 1024 is the word of 1/32. -/
theorem scale_eq : Ideal.div (Ideal.ofBits .f32 0x3F800000#32) (Ideal.sqrt (Ideal.ofBits .f32 0x44800000#32))
    = Cert.Attn.scale := by
  unfold Cert.Attn.scale
  rw [ofBits_one, ofBits_1024, ofBits_inv32, Ideal.sqrt_coe, if_neg (by norm_num), sqrt_1024,
    Ideal.div_coe (by norm_num), ← EReal.coe_mul, one_mul]

/-! ## The three projections -/

/-- Row (b, c) of the array `x` projected by the weights `W` and the bias `bias`, read by coordinates. -/
def proj (x : (⟨S4x2048x1024, .f32⟩ : BufTy).Contents (Elt Ideal)) (W : (⟨S1024x1024, .f32⟩ : BufTy).Contents (Elt Ideal)) (bias : (⟨S1024, .f32⟩ : BufTy).Contents (Elt Ideal)) (b : Fin 4) (c : Fin 2048) : Fin 1024 → EReal :=
  Cert.Attn.linear (fun d => x (ix3 b c d)) (fun h d => W (ix2 h d)) (fun h => bias (ix1 h))

/-- A contraction over the last axis of `x` and of `W` plus the bias broadcast along the rows, at (b, c, h), is the
    projected row's entry h. The three projections of the program have this one form. -/
theorem linear_read (x : (⟨S4x2048x1024, .f32⟩ : BufTy).Contents (Elt Ideal)) (W : (⟨S1024x1024, .f32⟩ : BufTy).Contents (Elt Ideal)) (bias : (⟨S1024, .f32⟩ : BufTy).Contents (Elt Ideal)) (b : Fin 4) (c : Fin 2048) (h : Fin 1024) :
    (∑ k : Fin 1024, x (lidx_main_v0 (ix3 b c h) k) * W (ridx_main_v0 (ix3 b c h) k))
        + bias (idx_main_v1 (idx_main_v2 (ix3 b c h))) = proj x W bias b c h := by
  unfold proj Cert.Attn.linear
  refine congrArg₂ (· + ·) (Finset.sum_congr rfl fun k _ => ?_) ?_
  · exact congrArg₂ (· * ·) (congrArg x (funext fun a => Fin.ext (by match a with | ⟨0, _⟩ => rfl | ⟨1, _⟩ => rfl | ⟨2, _⟩ => rfl))) (congrArg W (funext fun a => Fin.ext (by match a with | ⟨0, _⟩ => rfl | ⟨1, _⟩ => rfl)))
  · exact congrArg bias (funext fun a => Fin.ext (by match a with | ⟨0, _⟩ => rfl))

section Stages

variable (x0 x1 : (⟨S4x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))

/-- The keys: stage 3 at (b, c, h) is the row (b, c) of the second array projected by the fifth and sixth. -/
theorem v3_eq (b : Fin 4) (c : Fin 2048) (h : Fin 1024) :
    val_main_v3 (F := Ideal) x1 x4 x5 (ix3 b c h) = proj x1 x4 x5 b c h := by
  rw [val_main_v3_apply, val_main_v0_apply, val_main_v2_apply, val_main_v1_apply]
  exact linear_read x1 x4 x5 b c h

/-- The values: stage 7 at (b, c, h). -/
theorem v7_eq (b : Fin 4) (c : Fin 2048) (h : Fin 1024) :
    val_main_v7 (F := Ideal) x1 x6 x7 (ix3 b c h) = proj x1 x6 x7 b c h := by
  rw [val_main_v7_apply, val_main_v4_apply, val_main_v6_apply, val_main_v5_apply]
  exact linear_read x1 x6 x7 b c h

/-- The projected queries: stage 11 at (b, s, h). -/
theorem v11_eq (b : Fin 4) (s : Fin 2048) (h : Fin 1024) :
    val_main_v11 (F := Ideal) x0 x2 x3 (ix3 b s h) = proj x0 x2 x3 b s h := by
  rw [val_main_v11_apply, val_main_v8_apply, val_main_v10_apply, val_main_v9_apply]
  exact linear_read x0 x2 x3 b s h

/-! ## The scores -/

/-- The splat factor is the scale everywhere. -/
theorem v15_eq (i : S4x2048x2048.Idx) : val_main_v15 (F := Ideal) i = Cert.Attn.scale := by
  rw [val_main_v15_apply, val_main_v13_apply, val_main_cst_0_apply, val_main_v12_apply, val_main_cst_apply]
  exact scale_eq

/-- Stage 16 at (b, s, c) is the scaled score of query row (b, s) against key row (b, c). -/
theorem v16_eq (b : Fin 4) (s c : Fin 2048) :
    val_main_v16 (F := Ideal) x0 x1 x2 x3 x4 x5 (ix3 b s c)
      = Cert.Attn.score (proj x0 x2 x3 b s) (fun c' => proj x1 x4 x5 b c') c := by
  rw [val_main_v16_apply, val_main_v14_apply, v15_eq]
  unfold Cert.Attn.score
  refine congrArg (· * Cert.Attn.scale) (Finset.sum_congr rfl fun k _ => ?_)
  rw [show lidx_main_v14 (ix3 b s c) k = ix3 b s k from funext fun a => Fin.ext (by match a with | ⟨0, _⟩ => rfl | ⟨1, _⟩ => rfl | ⟨2, _⟩ => rfl),
    show ridx_main_v14 (ix3 b s c) k = ix3 b c k from funext fun a => Fin.ext (by match a with | ⟨0, _⟩ => rfl | ⟨1, _⟩ => rfl | ⟨2, _⟩ => rfl), v11_eq, v3_eq]

/-! ## The largest score of a row -/

/-- Dropping the last axis of a [4, 2048, 2048] array leaves a [4, 2048] one. -/
theorem reduces_d2 : S4x2048x2048.Reduces [2] S4x2048 := by decide

/-- The index (b, s) with k put back on the dropped axis is (b, s, k). -/
theorem lift_d2 (b : Fin 4) (s : Fin 2048) (k : Fin (S4x2048x2048.size 2)) :
    reduces_d2.lift (ix2 b s) k = ix3 b s (⟨k.val, k.isLt⟩ : Fin 2048) := by
  funext c; apply Fin.ext
  match c with
  | ⟨0, _⟩ => rfl
  | ⟨1, _⟩ => rfl
  | ⟨2, _⟩ => rfl

/-- Stage 17 at (b, s): the maximum, from minus infinity, of the scores of the row. -/
theorem v17_eq (b : Fin 4) (s : Fin 2048) :
    val_main_v17 (F := Ideal) x0 x1 x2 x3 x4 x5 (ix2 b s)
      = Cert.Attn.top (proj x0 x2 x3 b s) (fun c' => proj x1 x4 x5 b c') := by
  unfold val_main_v17
  rw [Host.reduce_eq_fold_single FloatOps.maximumf _ _ reducesTo_S4x2048x2048_S4x2048_d2 reduces_d2 h_S_]
  have hf : (val_main_v16 (F := Ideal) x0 x1 x2 x3 x4 x5 ∘ reduces_d2.lift (ix2 b s))
      = fun k : Fin 2048 => Cert.Attn.score (proj x0 x2 x3 b s) (fun c' => proj x1 x4 x5 b c') k :=
    funext fun k => by rw [Function.comp_apply, lift_d2, v16_eq]; exact rfl
  rw [hf]
  rfl

/-- Stage 19 at (b, s): the maximum with minus infinity changes nothing. -/
theorem v19_eq (b : Fin 4) (s : Fin 2048) :
    val_main_v19 (F := Ideal) x0 x1 x2 x3 x4 x5 (ix2 b s)
      = Cert.Attn.top (proj x0 x2 x3 b s) (fun c' => proj x1 x4 x5 b c') := by
  rw [val_main_v19_apply, val_main_v18_apply, val_main_cst_2_apply, v17_eq]
  show max (Ideal.ofBits .f32 0xFF800000#32) _ = _
  rw [ofBits_negInf]
  exact max_eq_right bot_le

/-! ## The exponentials, their sum, the weights -/

/-- Stage 23 at (b, s, c): the exponential of the score shifted by the row's largest. -/
theorem v23_eq (b : Fin 4) (s c : Fin 2048) :
    val_main_v23 (F := Ideal) x0 x1 x2 x3 x4 x5 (ix3 b s c)
      = Cert.Attn.ex (proj x0 x2 x3 b s) (fun c' => proj x1 x4 x5 b c') c := by
  rw [val_main_v23_apply, val_main_v22_apply, val_main_v21_apply, val_main_v20_apply, v16_eq,
    show idx_main_v20 (idx_main_v21 (ix3 b s c)) = ix2 b s from funext fun a => Fin.ext (by match a with | ⟨0, _⟩ => rfl | ⟨1, _⟩ => rfl), v19_eq]
  rfl

/-- Stage 24 at (b, s): the sum of the row's exponentials (the initial word is zero). -/
theorem v24_eq (b : Fin 4) (s : Fin 2048) :
    val_main_v24 (F := Ideal) x0 x1 x2 x3 x4 x5 (ix2 b s)
      = ∑ c : Fin 2048, Cert.Attn.ex (proj x0 x2 x3 b s) (fun c' => proj x1 x4 x5 b c') c := by
  rw [val_main_v24_apply, val_main_cst_3_apply]
  show Ideal.ofBits .f32 0x00000000#32 + _ = _
  rw [Ideal.ofBits_zero_f32, zero_add]
  refine Finset.sum_congr rfl fun k _ => ?_
  rw [show idx_main_v24 (ix2 b s) k = ix3 b s k from funext fun a => Fin.ext (by match a with | ⟨0, _⟩ => rfl | ⟨1, _⟩ => rfl | ⟨2, _⟩ => rfl), v23_eq]

/-- Stage 27 at (b, s, c): the weight of key c for query row (b, s). -/
theorem v27_eq (b : Fin 4) (s c : Fin 2048) :
    val_main_v27 (F := Ideal) x0 x1 x2 x3 x4 x5 (ix3 b s c)
      = Cert.Attn.weight (proj x0 x2 x3 b s) (fun c' => proj x1 x4 x5 b c') c := by
  rw [val_main_v27_apply, val_main_v26_apply, val_main_v25_apply, v23_eq,
    show idx_main_v25 (idx_main_v26 (ix3 b s c)) = ix2 b s from funext fun a => Fin.ext (by match a with | ⟨0, _⟩ => rfl | ⟨1, _⟩ => rfl), v24_eq]
  rfl

end Stages

/-! ## The result -/

/-- The reference program's result at (b, s, h) is the attention function of its eight arguments read by coordinates. -/
theorem ref_eq (x0 x1 : (⟨S4x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 4) (s : Fin 2048) (h : Fin 1024) :
    Cert.ReferenceIdeal.Read.val_main_v28 (F := Ideal) x0 x1 x2 x3 x4 x5 x6 x7 (ix3 b s h)
      = Cert.Attn.out (fun b s d => x0 (ix3 b s d)) (fun b s d => x1 (ix3 b s d)) (fun h d => x2 (ix2 h d)) (fun h => x3 (ix1 h))
          (fun h d => x4 (ix2 h d)) (fun h => x5 (ix1 h)) (fun h d => x6 (ix2 h d)) (fun h => x7 (ix1 h)) b s h := by
  rw [val_main_v28_apply]
  show _ = Cert.Attn.ctx (proj x0 x2 x3 b s) (fun c' => proj x1 x4 x5 b c') (fun c' => proj x1 x6 x7 b c') h
  unfold Cert.Attn.ctx
  refine Finset.sum_congr rfl fun k _ => ?_
  rw [show lidx_main_v28 (ix3 b s h) k = ix3 b s k from funext fun a => Fin.ext (by match a with | ⟨0, _⟩ => rfl | ⟨1, _⟩ => rfl | ⟨2, _⟩ => rfl),
    show ridx_main_v28 (ix3 b s h) k = ix3 b k h from funext fun a => Fin.ext (by match a with | ⟨0, _⟩ => rfl | ⟨1, _⟩ => rfl | ⟨2, _⟩ => rfl), v27_eq, v7_eq]

end Cert.RefSpec

end
-- ==== Proof.lean ====
/-
  The certificate of a fused attention kernel against its jnp reference, on the extended reals.

  The kernel projects the queries in one region (a matrix product of the flattened q with the transposed query
  weights, plus the bias), projects keys and values together in a second region (one product of the flattened x with
  the transposed key weights beside the transposed value weights, the two biases side by side), and in a third region
  computes, per batch and block of query rows, the scores against all keys times 1/32, the softmax over the keys
  (shift by the row maximum, exponential, division by the row sum) and the product of the weights with the values.
  The reference computes the three projections as einsums, scales the scores by 1 / sqrt 1024, applies jax's softmax and
  contracts with the values. On the extended reals a change of float format is the identity, a matrix product into a
  zero accumulator is the plain sum, sqrt 1024 is 32 and 1 / 32 is the word the kernel multiplies by, so both programs
  compute the same function of the eight arrays, entry by entry (Spec.lean), with no rearrangement of any sum: the
  claim needs no finiteness of the inputs.

  The three frames are the generated ones (the reference's is its generated run with the result dropped); the ideal
  pass rewrote nothing, so the preservation conjunct is trivial; the algebraic conjunct states both runs with the one
  specification array: the kernel's run names its result array as what the last region leaves (KernelRun.lean), which
  is the specification of the launch arguments (KernelValue.lean, over the three regions' arrays: QueryProj.lean,
  KeyValueProj.lean, AttnRegion.lean, and the host operations between them: EntryArrays.lean, LastEntry.lean); the
  reference's generated run ends at its composed term, which is the specification entry by entry (RefSpec.lean).
-/
import proofs.«119906_j20186346292012_2_alg».proof.Defs
import proofs.«119906_j20186346292012_2_alg».proof.Proof.Gen.Kernel
import proofs.«119906_j20186346292012_2_alg».proof.Proof.Gen.Kernel.Skeleton
import proofs.«119906_j20186346292012_2_alg».proof.Proof.Gen.Kernel.Launch
import proofs.«119906_j20186346292012_2_alg».proof.Proof.Gen.Kernel.Points
import proofs.«119906_j20186346292012_2_alg».proof.Proof.Gen.Kernel.Frame
import proofs.«119906_j20186346292012_2_alg».proof.Proof.Gen.KernelIdeal
import proofs.«119906_j20186346292012_2_alg».proof.Proof.Gen.KernelIdeal.Skeleton
import proofs.«119906_j20186346292012_2_alg».proof.Proof.Gen.KernelIdeal.Launch
import proofs.«119906_j20186346292012_2_alg».proof.Proof.Gen.KernelIdeal.Points
import proofs.«119906_j20186346292012_2_alg».proof.Proof.Gen.KernelIdeal.Frame
import proofs.«119906_j20186346292012_2_alg».proof.Proof.Gen.ReferenceIdeal
import proofs.«119906_j20186346292012_2_alg».proof.Proof.Gen.ReferenceIdeal.Run
import proofs.«119906_j20186346292012_2_alg».proof.Proof.Gen.ReferenceIdeal.Read
import proofs.«119906_j20186346292012_2_alg».proof.Proof.Gen.Pre_finite_inputs
import proofs.«119906_j20186346292012_2_alg».proof.Proof.KernelRun
import proofs.«119906_j20186346292012_2_alg».proof.Proof.KernelValue
import proofs.«119906_j20186346292012_2_alg».proof.Proof.RefSpec
import proofs.«119906_j20186346292012_2_alg».proof.Proof.SpecArray
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The idealized reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's composed term is the specification array: entry by entry. -/
theorem reference_array (x0 x1 : (⟨Cert.ReferenceIdeal.S4x2048x1024, .f32⟩ : BufTy).Contents (Elt Ideal))
    (x2 : (⟨Cert.ReferenceIdeal.S1024x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal))
    (x6 : (⟨Cert.ReferenceIdeal.S1024x1024, .f32⟩ : BufTy).Contents (Elt Ideal)) (x7 : (⟨Cert.ReferenceIdeal.S1024, .f32⟩ : BufTy).Contents (Elt Ideal)) :
    Cert.ReferenceIdeal.Read.val_main_v28 (F := Ideal) x0 x1 x2 x3 x4 x5 x6 x7 = Cert.Attn.outArr x0 x1 x2 x3 x4 x5 x6 x7 := by
  funext i
  obtain ⟨b, s, h, rfl⟩ : ∃ (b : Fin 4) (s : Fin 2048) (h : Fin 1024), i = ix3 b s h := ⟨i 0, i 1, i 2, eq_ix3 i⟩
  exact Cert.RefSpec.ref_eq x0 x1 x2 x3 x4 x5 x6 x7 b s h

/-- Both idealized programs, from memories agreeing on the arguments, end with the specification array of those
    arguments as their result. -/
theorem algebraic : Cert.algebraic_KernelIdeal_ReferenceIdeal := by
  intro m ρ m' ρ' _ hagree
  refine ⟨fun c => Cert.Attn.outArr
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result_eq m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    refine ((h c).1.trans (Cert.ReferenceIdeal.Read.val_main_v28_eq m' c)).trans ((reference_array _ _ _ _ _ _ _ _).trans ?_)
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
